-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S32768x16x128 : Shape := ⟨3, ![32768, 16, 128]⟩
abbrev S32768x16 : Shape := ⟨2, ![32768, 16]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S32768x16x128 : S_.BroadcastsInDim S32768x16x128 (![] : Fin 0 → Fin S32768x16x128.rank)
  reducesTo_S32768x16x128_S_d0_1_2 : S32768x16x128.ReducesTo [0, 1, 2] S_
  bcast_S_S32768x16 : S_.BroadcastsInDim S32768x16 (![] : Fin 0 → Fin S32768x16.rank)
  reducesTo_S32768x16_S_d0_1 : S32768x16.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128x256 .f32) (main_arg6 : FVec F S128 .f32) (main_arg7 : FVec F S128 .f32) (main_v13 : IVec S_ 1) (main_v16 : IVec S32768x16 1) : IVec S_ 1 :=
  let main_c_5 : IVec S_ 1 := constantI S_ 1 1#1
  let main_v17 : IVec S_ 1 := (fun x v => Host.reduce IntOp.andi x v reducesTo_S32768x16_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S32768x128 .f32) (main_arg1 : FVec F S32768x16x128 .f32) (main_arg2 : FVec F S32768x16x128 .f32) (main_arg3 : FVec F S32768x16 .f32) (main_arg4 : FVec F S128x128 .f32) (main_arg5 : FVec F S128x256 .f32) (main_arg6 : FVec F S128 .f32) (main_arg7 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S32768x16x128 .f32 := Host.absf main_arg1
  let main_cst_0 : FVec F S_ .f32 := constant S_ .f32 0x7F800000#32
  let main_v5 : FVec F S32768x16x128 .f32 := broadcastInDim S32768x16x128 ![] bcast_S_S32768x16x128 main_cst_0
  let main_v6 : IVec S32768x16x128 1 := cmpf .olt main_v4 main_v5
  let main_c_1 : IVec S_ 1 := constantI S_ 1 1#1
  let main_v7 : IVec S_ 1 := (fun x v => Host.reduce IntOp.andi x v reducesTo_S32768x16x128_S_d0_1_2 h_S_) main_v6 main_c_1
  let main_v8 : IVec S_ 1 := andi main_v3 main_v7
  let main_v9 : FVec F S32768x16x128 .f32 := Host.absf main_arg2
  let main_cst_2 : FVec F S_ .f32 := constant S_ .f32 0x7F800000#32
  let main_v10 : FVec F S32768x16x128 .f32 := broadcastInDim S32768x16x128 ![] bcast_S_S32768x16x128 main_cst_2
  let main_v11 : IVec S32768x16x128 1 := cmpf .olt main_v9 main_v10
  let main_c_3 : IVec S_ 1 := constantI S_ 1 1#1
  let main_v12 : IVec S_ 1 := (fun x v => Host.reduce IntOp.andi x v reducesTo_S32768x16x128_S_d0_1_2 h_S_) main_v11 main_c_3
  let main_v13 : IVec S_ 1 := andi main_v8 main_v12
  let main_v14 : FVec F S32768x16 .f32 := Host.absf main_arg3
  let main_cst_4 : FVec F S_ .f32 := constant S_ .f32 0x7F800000#32
  let main_v15 : FVec F S32768x16 .f32 := broadcastInDim S32768x16 ![] bcast_S_S32768x16 main_cst_4
  let main_v16 : IVec S32768x16 1 := cmpf .olt main_v14 main_v15
  fn_part1 (F := F) main_arg4 main_arg5 main_arg6 main_arg7 main_v13 main_v16
-- ==== Kernel.lean ====
abbrev S32768x128 : Shape := ⟨2, ![32768, 128]⟩
abbrev S32768x16x128 : Shape := ⟨3, ![32768, 16, 128]⟩
abbrev S32768x16 : Shape := ⟨2, ![32768, 16]⟩
abbrev S128x128 : Shape := ⟨2, ![128, 128]⟩
abbrev S128x256 : Shape := ⟨2, ![128, 256]⟩
abbrev S128 : Shape := ⟨1, ![128]⟩
abbrev S256x128 : Shape := ⟨2, ![256, 128]⟩
abbrev S256x16x128 : Shape := ⟨3, ![256, 16, 128]⟩
abbrev S256x16 : Shape := ⟨2, ![256, 16]⟩
abbrev S4096x128 : Shape := ⟨2, ![4096, 128]⟩
abbrev S4096x256 : Shape := ⟨2, ![4096, 256]⟩
abbrev S1x128 : Shape := ⟨2, ![1, 128]⟩
abbrev S256x1x128 : Shape := ⟨3, ![256, 1, 128]⟩
abbrev S256x16x1 : Shape := ⟨3, ![256, 16, 1]⟩

abbrev nBuf : Space → Nat
  | .hbm => 14
  | .vmem => 14
  | .smem => 0
  | _ => 0

abbrev bufTy : (tb : Table) → Fin (tcTables nBuf tb) → BufTy
  | .hbm, ⟨0, _⟩ => ⟨S32768x128, .f32⟩
  | .hbm, ⟨1, _⟩ => ⟨S32768x16x128, .f32⟩
  | .hbm, ⟨2, _⟩ => ⟨S32768x16x128, .f32⟩
  | .hbm, ⟨3, _⟩ => ⟨S32768x16, .f32⟩
  | .hbm, ⟨4, _⟩ => ⟨S128x128, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x256, .f32⟩
  | .hbm, ⟨13, _⟩ => ⟨S32768x128, .f32⟩
  | .local _ .vmem, ⟨0, _⟩ => ⟨S256x128, .f32⟩
  | .local _ .vmem, ⟨1, _⟩ => ⟨S256x128, .f32⟩
  | .local _ .vmem, ⟨2, _⟩ => ⟨S256x16x128, .f32⟩
  | .local _ .vmem, ⟨3, _⟩ => ⟨S256x16x128, .f32⟩
  | .local _ .vmem, ⟨4, _⟩ => ⟨S256x16x128, .f32⟩
  | .local _ .vmem, ⟨5, _⟩ => ⟨S256x16x128, .f32⟩
  | .local _ .vmem, ⟨6, _⟩ => ⟨S256x16, .f32⟩
  | .local _ .vmem, ⟨7, _⟩ => ⟨S256x16, .f32⟩
  | .local _ .vmem, ⟨8, _⟩ => ⟨S128x128, .f32⟩
  | .local _ .vmem, ⟨9, _⟩ => ⟨S128x256, .f32⟩
  | .local _ .vmem, ⟨10, _⟩ => ⟨S128, .f32⟩
  | .local _ .vmem, ⟨11, _⟩ => ⟨S128, .f32⟩
  | .local _ .vmem, ⟨12, _⟩ => ⟨S256x128, .f32⟩
  | .local _ .vmem, ⟨13, _⟩ => ⟨S256x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S128x256_S128x128_0_0 : S128x256.Slices ![0, 0] S128x128
  slices_S128x256_S128x128_0_128 : S128x256.Slices ![0, 128] S128x128
  concatenates_S128x128_S128x128_S128x256_d1 : Shape.Concatenates [S128x128, S128x128] S128x256 1
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128_S128_0 : ∀ a, (![0] : Fin 1 → Nat) a + S128.size a ≤ S128.size a
  h_S128 : 0 < S128.numel
  inb_S256x128_S256x128_0_0 : ∀ a, (![0, 0] : Fin 2 → Nat) a + S256x128.size a ≤ S256x128.size a
  h_S256x128 : 0 < S256x128.numel
  transposes_S128x128_p1_0_S128x128 : S128x128.Transposes [1, 0] S128x128
  inb_S256x16x128_S256x16x128_0_0_0 : ∀ a, (![0, 0, 0] : Fin 3 → Nat) a + S256x16x128.size a ≤ S256x16x128.size a
  h_S256x16x128 : 0 < S256x16x128.numel
  shapeCasts_S256x16x128_S4096x128 : S256x16x128.ShapeCasts S4096x128
  concatenates_S4096x128_S4096x128_S4096x256_d1 : Shape.Concatenates [S4096x128, S4096x128] S4096x256 1
  transposes_S128x256_p1_0_S256x128 : S128x256.Transposes [1, 0] S256x128
  shapeCasts_S128_S1x128 : S128.ShapeCasts S1x128
  broadcasts_S1x128_S4096x128 : S1x128.Broadcasts S4096x128
  shapeCasts_S4096x128_S256x16x128 : S4096x128.ShapeCasts S256x16x128
  shapeCasts_S256x128_S256x1x128 : S256x128.ShapeCasts S256x1x128
  broadcasts_S256x1x128_S256x16x128 : S256x1x128.Broadcasts S256x16x128
  inb_S256x16_S256x16_0_0 : ∀ a, (![0, 0] : Fin 2 → Nat) a + S256x16.size a ≤ S256x16.size a
  h_S256x16 : 0 < S256x16.numel
  shapeCasts_S256x16_S256x16x1 : S256x16.ShapeCasts S256x16x1
  broadcasts_S256x16x1_S256x16x128 : S256x16x1.Broadcasts S256x16x128
  reduces_S256x16x128_S256x128 : S256x16x128.Reduces [1] S256x128
  broadcasts_S1x128_S256x128 : S1x128.Broadcasts S256x128
  dot_S128x128_S128x128_S128x128_1_0_0_1_n_n_wf : DotDims.WF S128x128 S128x128 S128x128 [1] [0] [0] [1] [] []
  dot_S256x128_S128x128_S256x128_1_0_0_1_n_n_wf : DotDims.WF S256x128 S128x128 S256x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S32768x128.size a
  hwx0_0 : ∀ i : grid0.Coords, EltTy.bits .f32 = 32 ∨ (Rect.block (s := S32768x128) S256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16x128.size a ≤ S32768x16x128.size a
  hwx0_1 : ∀ i : grid0.Coords, EltTy.bits .f32 = 32 ∨ (Rect.block (s := S32768x16x128) S256x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16x128.size a ≤ S32768x16x128.size a
  hwx0_2 : ∀ i : grid0.Coords, EltTy.bits .f32 = 32 ∨ (Rect.block (s := S32768x16x128) S256x16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x16.size a ≤ S32768x16.size a
  hwx0_3 : ∀ i : grid0.Coords, EltTy.bits .f32 = 32 ∨ (Rect.block (s := S32768x16) S256x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S32768x128.size a
  hwx0_8 : ∀ i : grid0.Coords, EltTy.bits .f32 = 32 ∨ (Rect.block (s := S32768x128) S256x128.size (cc0_transform_8 i) (hinb0_8 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x128 : Shape := ⟨2, ![32768, 128]⟩
abbrev S32768x16x128 : Shape := ⟨3, ![32768, 16, 128]⟩
abbrev S32768x16 : Shape := ⟨2, ![32768, 16]⟩
abbrev S128x128 : Shape := ⟨2, ![128, 128]⟩
abbrev S128x256 : Shape := ⟨2, ![128, 256]⟩
abbrev S128 : Shape := ⟨1, ![128]⟩
abbrev S32768x16x256 : Shape := ⟨3, ![32768, 16, 256]⟩
abbrev S1x1x128 : Shape := ⟨3, ![1, 1, 128]⟩
abbrev S32768x1x128 : Shape := ⟨3, ![32768, 1, 128]⟩
abbrev S_ : Shape := ⟨0, ![]⟩
abbrev S32768x16x1 : Shape := ⟨3, ![32768, 16, 1]⟩
abbrev S1x128 : Shape := ⟨2, ![1, 128]⟩

abbrev nBuf : Space → Nat
  | .hbm => 52
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x16x128, .f32⟩
  | .hbm, ⟨2, _⟩ => ⟨S32768x16x128, .f32⟩
  | .hbm, ⟨3, _⟩ => ⟨S32768x16, .f32⟩
  | .hbm, ⟨4, _⟩ => ⟨S128x128, .f32⟩
  | .hbm, ⟨5, _⟩ => ⟨S128x256, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S32768x128, .f32⟩
  | .hbm, ⟨10, _⟩ => ⟨S32768x16x128, .f32⟩
  | .hbm, ⟨11, _⟩ => ⟨S32768x16x128, .f32⟩
  | .hbm, ⟨12, _⟩ => ⟨S32768x16x256, .f32⟩
  | .hbm, ⟨13, _⟩ => ⟨S32768x16x128, .f32⟩
  | .hbm, ⟨14, _⟩ => ⟨S1x1x128, .f32⟩
  | .hbm, ⟨15, _⟩ => ⟨S32768x16x128, .f32⟩
  | .hbm, ⟨16, _⟩ => ⟨S32768x16x128, .f32⟩
  | .hbm, ⟨17, _⟩ => ⟨S32768x1x128, .f32⟩
  | .hbm, ⟨18, _⟩ => ⟨S32768x16x128, .f32⟩
  | .hbm, ⟨19, _⟩ => ⟨S32768x16x128, .f32⟩
  | .hbm, ⟨20, _⟩ => ⟨S_, .f32⟩
  | .hbm, ⟨21, _⟩ => ⟨S_, .f32⟩
  | .hbm, ⟨22, _⟩ => ⟨S32768x16x128, .f32⟩
  | .hbm, ⟨23, _⟩ => ⟨S32768x16x128, .i1⟩
  | .hbm, ⟨24, _⟩ => ⟨S_, .f32⟩
  | .hbm, ⟨25, _⟩ => ⟨S32768x16x128, .f32⟩
  | .hbm, ⟨26, _⟩ => ⟨S32768x16x128, .f32⟩
  | .hbm, ⟨27, _⟩ => ⟨S32768x16x128, .f32⟩
  | .hbm, ⟨28, _⟩ => ⟨S32768x16x128, .f32⟩
  | .hbm, ⟨29, _⟩ => ⟨S32768x16x1, .f32⟩
  | .hbm, ⟨30, _⟩ => ⟨S32768x16x128, .f32⟩
  | .hbm, ⟨31, _⟩ => ⟨S32768x16x128, .f32⟩
  | .hbm, ⟨32, _⟩ => ⟨S_, .f32⟩
  | .hbm, ⟨33, _⟩ => ⟨S32768x128, .f32⟩
  | .hbm, ⟨34, _⟩ => ⟨S1x128, .f32⟩
  | .hbm, ⟨35, _⟩ => ⟨S32768x128, .f32⟩
  | .hbm, ⟨36, _⟩ => ⟨S32768x128, .f32⟩
  | .hbm, ⟨37, _⟩ => ⟨S_, .f32⟩
  | .hbm, ⟨38, _⟩ => ⟨S32768x128, .f32⟩
  | .hbm, ⟨39, _⟩ => ⟨S32768x128, .i1⟩
  | .hbm, ⟨40, _⟩ => ⟨S_, .f32⟩
  | .hbm, ⟨41, _⟩ => ⟨S32768x128, .f32⟩
  | .hbm, ⟨42, _⟩ => ⟨S32768x128, .i1⟩
  | .hbm, ⟨43, _⟩ => ⟨S_, .f32⟩
  | .hbm, ⟨44, _⟩ => ⟨S_, .f32⟩
  | .hbm, ⟨45, _⟩ => ⟨S32768x128, .f32⟩
  | .hbm, ⟨46, _⟩ => ⟨S32768x128, .f32⟩
  | .hbm, ⟨47, _⟩ => ⟨S32768x128, .f32⟩
  | .hbm, ⟨48, _⟩ => ⟨S_, .f32⟩
  | .hbm, ⟨49, _⟩ => ⟨S32768x128, .f32⟩
  | .hbm, ⟨50, _⟩ => ⟨S32768x128, .f32⟩
  | .hbm, ⟨51, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v21 : Ref sig .tc := ⟨.hbm, 51, rfl⟩

abbrev nD : Nat := 1
abbrev τ : Topo := Topo.v7x

variable {F : FTy → Type} [FloatOps F]

class Facts₀ : Prop where
  transposes_S128x128_S128x128_1_0 : S128x128.Transposes [1, 0] S128x128
  concatenates_S32768x16x128_S32768x16x128_S32768x16x256_d2 : Shape.Concatenates [S32768x16x128, S32768x16x128] S32768x16x256 2
  bcast_S128_S1x1x128_2 : S128.BroadcastsInDim S1x1x128 (![2] : Fin 1 → Fin S1x1x128.rank)
  bcast_S1x1x128_S32768x16x128_0_1_2 : S1x1x128.BroadcastsInDim S32768x16x128 (![0, 1, 2] : Fin 3 → Fin S32768x16x128.rank)
  bcast_S32768x128_S32768x1x128_0_2 : S32768x128.BroadcastsInDim S32768x1x128 (![0, 2] : Fin 2 → Fin S32768x1x128.rank)
  bcast_S32768x1x128_S32768x16x128_0_1_2 : S32768x1x128.BroadcastsInDim S32768x16x128 (![0, 1, 2] : Fin 3 → Fin S32768x16x128.rank)
  bcast_S_S32768x16x128 : S_.BroadcastsInDim S32768x16x128 (![] : Fin 0 → Fin S32768x16x128.rank)
  bcast_S32768x16_S32768x16x1_0_1 : S32768x16.BroadcastsInDim S32768x16x1 (![0, 1] : Fin 2 → Fin S32768x16x1.rank)
  bcast_S32768x16x1_S32768x16x128_0_1_2 : S32768x16x1.BroadcastsInDim S32768x16x128 (![0, 1, 2] : Fin 3 → Fin S32768x16x128.rank)
  reducesTo_S32768x16x128_S32768x128_d1 : S32768x16x128.ReducesTo [1] S32768x128
  h_S_ : 0 < S_.numel
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x128_S128x128_S32768x128_1_0_0_1_n_n_wf : DotDims.WF S32768x128 S128x128 S32768x128 [1] [0] [0] [1] [] []
  dot_S32768x16x128_S128x128_S32768x16x128_2_1_01_0_n_n_wf : DotDims.WF S32768x16x128 S128x128 S32768x16x128 [2] [1] [0, 1] [0] [] []
  dot_S32768x16x256_S128x256_S32768x16x128_2_1_01_0_n_n_wf : DotDims.WF S32768x16x256 S128x256 S32768x16x128 [2] [1] [0, 1] [0] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf
def dot_S32768x16x128_S128x128_S32768x16x128_2_1_01_0_n_n : DotDims S32768x16x128 S128x128 S32768x16x128 where
  lhsContracting := [2]
  rhsContracting := [1]
  lhsNonContracting := [0, 1]
  rhsNonContracting := [0]
  lhsBatch := []
  rhsBatch := []
  wf := dot_S32768x16x128_S128x128_S32768x16x128_2_1_01_0_n_n_wf
def dot_S32768x16x256_S128x256_S32768x16x128_2_1_01_0_n_n : DotDims S32768x16x256 S128x256 S32768x16x128 where
  lhsContracting := [2]
  rhsContracting := [1]
  lhsNonContracting := [0, 1]
  rhsNonContracting := [0]
  lhsBatch := []
  rhsBatch := []
  wf := dot_S32768x16x256_S128x256_S32768x16x128_2_1_01_0_n_n_wf

class Facts : Prop extends Facts₀ where

variable [Facts]
-- ==== Proof.Spec.lean ====
/-
  The function both programs compute, written index by index on the extended reals.

  A node `n` has 16 neighbours; neighbour `k` carries a feature row `X1 (n,k,·)` and an aspect row
  `X2 (n,k,·)`, each of 128 entries, and an attention score `A (n,k)`. `W` is the 128×128 projection,
  `Wa` the 128×256 mixing matrix, `ba` and `bias` two rows of 128 entries.

  Per edge `(n,k)` and output channel `o` the pre-activation is

      mix (n,k,o) + ba o + Σ_f X0 (n,f) · W (o,f)

  where `mix` is the mixing matrix applied to the two projected rows laid side by side. It is written twice,
  in the two arrangements of its double sum:

  * projected first (`mixR`): Σ_j cat (n,k,j) · Wa (o,j), with cat (n,k,j) = Σ_f X (n,k,f) · W (j mod 128, f),
    X the features for j < 128 and the aspects for j ≥ 128;
  * weights folded first (`mixK`): Σ_j x (n,k,j) · wcat (o,j), with x the two raw rows side by side and
    wcat (o,j) = Σ_c Wa (o, c or 128 + c) · W (c, j mod 128).

  Then a leaky rectifier of slope 0.2 (the rectifier's test at 0 is strict in one form and not in the other;
  they agree, the slope times 0 being 0), the exponential, the product with the attention score, the sum over
  the 16 neighbours, `bias`, and the exponential linear unit (once as `exp r - 1` against the unit word,
  once as `1 · (exp r' - 1)` with `r'` the argument made nonpositive first).

  `outK` and `outR` are the two spellings in full; that they are equal on finite arrays is another module.
-/
import Idealize.ShloMosaic.Lib.ValueIdx
import Idealize.ShloMosaic.PureOps.Ideal.Laws

open scoped BigOperators
open Idealize.ShloMosaic Idealize.ShloMosaic.ValueIdx

noncomputable section

namespace Cert.EdgeSum

/-- The rectifier's slope, the float word of 0.2. -/
abbrev slope : EReal := Ideal.ofBits .f32 0x3E4CCCCD#32
/-- The float word of 1. -/
abbrev one32 : EReal := Ideal.ofBits .f32 0x3F800000#32
/-- The float word of 0. -/
abbrev zero32 : EReal := Ideal.ofBits .f32 0x00000000#32

variable (X0 : (⟨2, ![32768, 128]⟩ : Shape).Idx → EReal)
  (X1 X2 : (⟨3, ![32768, 16, 128]⟩ : Shape).Idx → EReal)
  (A : (⟨2, ![32768, 16]⟩ : Shape).Idx → EReal)
  (W : (⟨2, ![128, 128]⟩ : Shape).Idx → EReal)
  (Wa : (⟨2, ![128, 256]⟩ : Shape).Idx → EReal)
  (ba bias : (⟨1, ![128]⟩ : Shape).Idx → EReal)

/-- The node's own projection: row `n` of `X0` against row `o` of `W`. -/
def nodeProj (n : Fin 32768) (o : Fin 128) : EReal := ∑ f : Fin 128, X0 (ix2 n f) * W (ix2 o f)

/-- A neighbour row projected: row `(n,k)` of `X` against row `c` of `W`. -/
def proj (X : (⟨3, ![32768, 16, 128]⟩ : Shape).Idx → EReal) (n : Fin 32768) (k : Fin 16) (c : Fin 128) : EReal :=
  ∑ f : Fin 128, X (ix3 n k f) * W (ix2 c f)

/-- The lower half of a column index below 256. -/
abbrev lo (j : Fin 256) (h : j.val < 128) : Fin 128 := ⟨j.val, h⟩
/-- The upper half of a column index below 256, brought down by 128. -/
abbrev hi (j : Fin 256) (h : ¬ j.val < 128) : Fin 128 := ⟨j.val - 128, by have := j.isLt; omega⟩
/-- Column `c` of the upper half. -/
abbrev up (c : Fin 128) : Fin 256 := ⟨128 + c.val, by have := c.isLt; omega⟩
/-- Column `c` of the lower half. -/
abbrev dn (c : Fin 128) : Fin 256 := ⟨c.val, by have := c.isLt; omega⟩

/-- The two projected rows side by side. -/
def catR (n : Fin 32768) (k : Fin 16) (j : Fin 256) : EReal :=
  if h : j.val < 128 then proj W X1 n k (lo j h) else proj W X2 n k (hi j h)

/-- Projected first, then mixed. -/
def mixR (n : Fin 32768) (k : Fin 16) (o : Fin 128) : EReal := ∑ j : Fin 256, catR X1 X2 W n k j * Wa (ix2 o j)

/-- The two raw rows side by side. -/
def catK (n : Fin 32768) (k : Fin 16) (j : Fin 256) : EReal :=
  if h : j.val < 128 then X1 (ix3 n k (lo j h)) else X2 (ix3 n k (hi j h))

/-- The projection folded into the mixing matrix, half by half. -/
def wcat (o : Fin 128) (j : Fin 256) : EReal :=
  if h : j.val < 128 then ∑ c : Fin 128, Wa (ix2 o (dn c)) * W (ix2 c (lo j h))
  else ∑ c : Fin 128, Wa (ix2 o (up c)) * W (ix2 c (hi j h))

/-- Weights folded first. -/
def mixK (n : Fin 32768) (k : Fin 16) (o : Fin 128) : EReal := ∑ j : Fin 256, catK X1 X2 n k j * wcat W Wa o j

/-- The leaky rectifier with the strict test. -/
def leakyK (x : EReal) : EReal := Scalar.select (Ideal.cmp .ogt x zero32) x (slope * x)
/-- The leaky rectifier with the non-strict test. -/
def leakyR (x : EReal) : EReal := Scalar.select (Ideal.cmp .oge x zero32) x (slope * x)

/-- The exponential linear unit as `exp r - 1`. -/
def eluK (r : EReal) : EReal := Scalar.select (Ideal.cmp .ogt r zero32) r (Ideal.exp r - one32)
/-- The exponential linear unit as `1 · (exp r' - 1)`, `r'` the argument or 0 where it is positive. -/
def eluR (r : EReal) : EReal :=
  Scalar.select (Ideal.cmp .ogt r zero32) r
    (one32 * (Ideal.exp (Scalar.select (Ideal.cmp .ogt r zero32) zero32 r) - 1))

/-- The pre-activation of edge `(n,k)`, channel `o`: weights folded first. -/
def preK (n : Fin 32768) (k : Fin 16) (o : Fin 128) : EReal :=
  (mixK X1 X2 W Wa n k o + ba (ix1 o)) + nodeProj X0 W n o
/-- The same, projected first. -/
def preR (n : Fin 32768) (k : Fin 16) (o : Fin 128) : EReal :=
  (mixR X1 X2 W Wa n k o + ba (ix1 o)) + nodeProj X0 W n o

/-- The attention-weighted sum over the 16 neighbours. -/
def aggK (n : Fin 32768) (o : Fin 128) : EReal :=
  ∑ k : Fin 16, Ideal.exp (leakyK (preK X0 X1 X2 W Wa ba n k o)) * A (ix2 n k)
/-- The same from the zero word, as a fold with an initial value leaves it. -/
def aggR (n : Fin 32768) (o : Fin 128) : EReal :=
  zero32 + ∑ k : Fin 16, Ideal.exp (leakyR (preR X0 X1 X2 W Wa ba n k o)) * A (ix2 n k)

/-- The result at node `n`, channel `o`: weights folded first. -/
def outK (n : Fin 32768) (o : Fin 128) : EReal := eluK (aggK X0 X1 X2 A W Wa ba n o + bias (ix1 o))
/-- The result at node `n`, channel `o`: projected first. -/
def outR (n : Fin 32768) (o : Fin 128) : EReal := eluR (aggR X0 X1 X2 A W Wa ba n o + bias (ix1 o))

/-- The result as an array, weights folded first. -/
def arrK : (⟨2, ![32768, 128]⟩ : Shape).Idx → EReal :=
  fun i => outK X0 X1 X2 A W Wa ba bias ⟨(i 0).val, idx2_lt0 i⟩ ⟨(i 1).val, idx2_lt1 i⟩
/-- The result as an array, projected first. -/
def arrR : (⟨2, ![32768, 128]⟩ : Shape).Idx → EReal :=
  fun i => outR X0 X1 X2 A W Wa ba bias ⟨(i 0).val, idx2_lt0 i⟩ ⟨(i 1).val, idx2_lt1 i⟩

end Cert.EdgeSum

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibKeepdims3.lean ====
/-
  Keepdims forms of rank 3 read at an index given by coordinates, and the one-axis reductions of a rank-3
  vector read at the ideal values.

  A reduction that keeps the reduced axis as a unit axis prints as three operations: the reduction itself, a
  shape cast that puts the unit axis back, and a broadcast of the unit axis over the original extent. Read at
  an index `(i, k, j)` the cast and the broadcast only forget the coordinate on the unit axis; the reduction is
  the sum (or the fold of `max`) over that axis's coordinate with the other two held. Each lemma below says this
  for one operation, with the extents `a`, `b`, `c` arbitrary and every index written by its coordinates.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Keepdims3

open Idealize.ShloMosaic Idealize.ShloMosaic.ValueIdx

variable {α : Type}

/-! ## A unit axis put back by a shape cast -/

/-- An `[a, c]` array cast to `[a, 1, c]` reads, at `(i, u, j)`, the operand at `(i, j)`: both have row-major
    position `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b]` array cast to `[a, b, 1]` reads, at `(i, j, u)`, the operand at `(i, j)`: both have row-major
    position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## A unit axis broadcast over an extent -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ =>
    exact (if_pos rfl).symm
  | ⟨2, _⟩ =>
    show j.val = if c = 1 then 0 else j.val
    split
    · have := j.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    exact (if_pos rfl).symm

/-- A `[1, b, c]` array broadcast to `[a, b, c]` reads, at `(k, i, j)`, the operand's one matrix at `(i, j)`. -/
theorem broadcastTo_1bc_abc_apply {a b c : ℕ} (v : (⟨3, ![1, b, c]⟩ : Shape).Idx → α)
    (h : (⟨3, ![1, b, c]⟩ : Shape).Broadcasts ⟨3, ![a, b, c]⟩) (k : Fin a) (i : Fin b) (j : Fin c) :
    broadcastTo ⟨3, ![a, b, c]⟩ v h (ix3 k i j) = v (ix3 (0 : Fin 1) i j) := by
  refine broadcastTo_apply v h (ix3 k i j) (ix3 (0 : Fin 1) i j) fun ax => ?_
  match ax with
  | ⟨0, _⟩ =>
    exact (if_pos rfl).symm
  | ⟨1, _⟩ =>
    show i.val = if b = 1 then 0 else i.val
    split
    · have := i.isLt; omega
    · rfl
  | ⟨2, _⟩ =>
    show j.val = if c = 1 then 0 else j.val
    split
    · have := j.isLt; omega
    · rfl

/-! ## The index a one-axis reduction of a rank-3 vector reads -/

/-- Reducing the middle axis: the source index over result index `(i, j)` with middle coordinate `k` is `(i, k, j)`. -/
theorem lift_axis1 {a b c : ℕ} (h : (⟨3, ![a, b, c]⟩ : Shape).Reduces [1] (⟨2, ![a, c]⟩ : Shape)) (i : Fin a) (j : Fin c)
    (k : Fin ((⟨3, ![a, b, c]⟩ : Shape).size 1)) : h.lift (ix2 i j) k = ix3 i (⟨k.val, k.isLt⟩ : Fin b) j := by
  funext e; apply Fin.ext
  fin_cases e <;> rfl

/-- Reducing the last axis: the source index over result index `(i, j)` with last coordinate `k` is `(i, j, k)`. -/
theorem lift_axis2 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext e; apply Fin.ext
  fin_cases e <;> rfl

/-! ## One-axis reductions of a rank-3 vector at the ideal values -/

/-- The sum over the middle axis, read at `(i, j)`, is `∑ k, src (i, k, j)`. -/
theorem multiReduction_add_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (i : Fin a) (j : Fin c) :
    multiReduction .add [1] ⟨2, ![a, c]⟩ src acc h hφ hacc (ix2 i j) = ∑ k : Fin b, src (ix3 i k j) :=
  (Ideal.multiReduction_add_single src acc h hφ hacc (ix2 i j)).trans
    (Finset.sum_congr rfl fun k _ => congrArg src (lift_axis1 h i j k))

/-- The sum over the last axis, read at `(i, j)`, is `∑ k, src (i, j, k)`. -/
theorem multiReduction_add_axis2_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ)
    (hacc : acc = FKind.add.neutral φ hφ) (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_axis2 h i j k))

/-- The maximum over the middle axis, read at `(i, j)`, is the fold of `max` from the accumulator's value over
    `src (i, k, j)`. -/
theorem multiReduction_maximumf_axis1_apply {a b c : ℕ} {φ : FTy} (src : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (i : Fin a) (j : Fin c) :
    multiReduction .maximumf [1] ⟨2, ![a, c]⟩ src acc h hφ hacc (ix2 i j)
      = (Finset.univ : Finset (Fin b)).fold max (Ideal.ofBits φ acc) (fun k => src (ix3 i k j)) :=
  (Ideal.multiReduction_maximumf_single src acc h hφ hacc (ix2 i j)).trans
    (congrArg (fun f => (Finset.univ : Finset (Fin b)).fold max (Ideal.ofBits φ acc) f)
      (funext fun k => congrArg src (lift_axis1 h i j k)))

end Cert.Keepdims3

end
-- ==== Proof.BlockRead.lean ====
/-
  The kernel body's layout steps read at coordinates, for this kernel's block extents: 256 nodes of 16 neighbours
  with 128 features each.

  The body folds the neighbour axis into the row axis before its matrix products and unfolds it afterwards: row
  `16 · p + k` of the folded 4096-row matrix is neighbour `k` of node `p`. It lays the two folded neighbour
  matrices side by side into 256 columns, and multiplies by the transposed 128 × 256 weight block. Each lemma
  below reads one of these steps at an index written by its coordinates.
-/
import proofs.«163248_j15307263443312_2_alg».proof.Proof.Gen.KernelIdeal
import proofs.«163248_j15307263443312_2_alg».proof.Proof.Spec
import proofs.«163248_j15307263443312_2_alg».proof.Proof.LibPlainMatmul
import proofs.«163248_j15307263443312_2_alg».proof.Proof.LibKeepdims3
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.BlockRead

open Cert.KernelIdeal Cert.KernelIdeal.Gen Idealize.ShloMosaic Idealize.ShloMosaic.ValueIdx Cert.EdgeSum

variable {α : Type}

/-- Row `16 · p + k` of the folded matrix. -/
abbrev row (p : Fin 256) (k : Fin 16) : Fin 4096 := ⟨16 * p.val + k.val, by have := p.isLt; have := k.isLt; omega⟩

/-- Folding the neighbour axis into the rows: the folded matrix at `(16 p + k, f)` is the block at `(p, k, f)`. -/
theorem fold_apply (x : S256x16x128.Idx → α) (h : S256x16x128.ShapeCasts S4096x128) (p : Fin 256) (k : Fin 16) (f : Fin 128) :
    shapeCast S4096x128 x h (ix2 (row p k) f) = x (ix3 p k f) :=
  shapeCast_apply x h _ _ (by
    rw [Shape.rowMajor_val_three, Shape.rowMajor_val_two]
    show (p.val * 16 + k.val) * 128 + f.val = (16 * p.val + k.val) * 128 + f.val
    omega)

/-- Unfolding it again: the block at `(p, k, o)` is the folded matrix at `(16 p + k, o)`. -/
theorem unfold_apply (y : S4096x128.Idx → α) (h : S4096x128.ShapeCasts S256x16x128) (p : Fin 256) (k : Fin 16) (o : Fin 128) :
    shapeCast S256x16x128 y h (ix3 p k o) = y (ix2 (row p k) o) :=
  shapeCast_apply y h _ _ (by
    rw [Shape.rowMajor_val_three, Shape.rowMajor_val_two]
    show (16 * p.val + k.val) * 128 + o.val = (p.val * 16 + k.val) * 128 + o.val
    omega)

/-- Two 128-column matrices side by side, read in the left half. -/
theorem beside_left (x₁ x₂ : S4096x128.Idx → α) (h : Shape.Concatenates [S4096x128, S4096x128] S4096x256 1)
    (r : Fin 4096) (j : Fin 256) (hj : j.val < 128) :
    concatenate S4096x256 1 [⟨S4096x128, x₁⟩, ⟨S4096x128, x₂⟩] h (ix2 r j) = x₁ (ix2 r (lo j hj)) :=
  concatenate_pair_apply_left 1 x₁ x₂ h (ix2 r j) rfl (ix2 r (lo j hj)) fun b =>
    match b with | ⟨0, _⟩ => rfl | ⟨1, _⟩ => rfl

/-- Two 128-column matrices side by side, read in the right half. -/
theorem beside_right (x₁ x₂ : S4096x128.Idx → α) (h : Shape.Concatenates [S4096x128, S4096x128] S4096x256 1)
    (r : Fin 4096) (j : Fin 256) (hj : ¬ j.val < 128) :
    concatenate S4096x256 1 [⟨S4096x128, x₁⟩, ⟨S4096x128, x₂⟩] h (ix2 r j) = x₂ (ix2 r (hi j hj)) :=
  concatenate_pair_apply_right 1 x₁ x₂ h (ix2 r j) rfl rfl (ix2 r (hi j hj))
    (fun b hb => match b, hb with | ⟨0, _⟩, _ => rfl | ⟨1, _⟩, hb => absurd rfl hb)
    (by show (j.val - 128) + 128 = j.val; omega)

end Cert.KernelIdeal.BlockRead

end
-- ==== Proof.Payload.lean ====
/-
  The kernel body's arithmetic read at an index of its output block.
-/
import proofs.«163248_j15307263443312_2_alg».proof.Proof.Gen.KernelIdeal.Value
import proofs.«163248_j15307263443312_2_alg».proof.Proof.BlockRead

open scoped BigOperators

noncomputable section

namespace Cert.KernelIdeal.BlockRead

open Cert.KernelIdeal Cert.KernelIdeal.Gen Idealize.ShloMosaic Idealize.ShloMosaic.ValueIdx Cert.EdgeSum
open Cert.LibPlainMatmul (matmul_zero_plain)

/-- The two raw neighbour rows of a block side by side. -/
def catB (P4 P5 : S256x16x128.Idx → EReal) (p : Fin 256) (k : Fin 16) (j : Fin 256) : EReal :=
  if h : j.val < 128 then P4 (ix3 p k (lo j h)) else P5 (ix3 p k (hi j h))

/-- The pre-activation of a block's edge `(p, k)`, channel `q`, from the block's loads. -/
def preB (P0 : S128x128.Idx → EReal) (P1 : S128x256.Idx → EReal) (P2 : S128.Idx → EReal) (P3 : S256x128.Idx → EReal)
    (P4 P5 : S256x16x128.Idx → EReal) (p : Fin 256) (k : Fin 16) (q : Fin 128) : EReal :=
  (∑ j : Fin 256, catB P4 P5 p k j * P1 (ix2 q j) + P2 (ix1 q)) + ∑ f : Fin 128, P3 (ix2 p f) * P0 (ix2 q f)

/-- The block's attention-weighted sum over the neighbours. -/
def aggB (P0 : S128x128.Idx → EReal) (P1 : S128x256.Idx → EReal) (P2 : S128.Idx → EReal) (P3 : S256x128.Idx → EReal)
    (P4 P5 : S256x16x128.Idx → EReal) (P6 : S256x16.Idx → EReal) (p : Fin 256) (q : Fin 128) : EReal :=
  ∑ k : Fin 16, Ideal.exp (leakyK (preB P0 P1 P2 P3 P4 P5 p k q)) * P6 (ix2 p k)

/-- The node block against the transposed projection block: row `p` of one against row `q` of the other. -/
theorem nodeProj_apply (l : FVec Ideal S256x128 .bf16) (r : FVec Ideal S128x128 .bf16) (p : Fin 256) (q : Fin 128) :
    matmul dot_S256x128_S128x128_S256x128_1_0_0_1_n_n none l r (constant S256x128 .f32 0x00000000#32) (ix2 p q)
      = ∑ f : Fin 128, l (ix2 p f) * r (ix2 f q) :=
  matmul_zero_plain _ l r p q

/-- The folded side-by-side matrix against the transposed weight block. -/
theorem mix_apply (l : FVec Ideal S4096x256 .bf16) (r : FVec Ideal S256x128 .bf16) (i : Fin 4096) (o : Fin 128) :
    matmul dot_S4096x256_S256x128_S4096x128_1_0_0_1_n_n none l r (constant S4096x128 .f32 0x00000000#32) (ix2 i o)
      = ∑ j : Fin 256, l (ix2 i j) * r (ix2 j o) :=
  matmul_zero_plain _ l r i o

/-- The side-by-side matrix at row `16 p + k`, column `j`, is the raw neighbour rows side by side. -/
theorem cat_apply (P4 P5 : FVec Ideal S256x16x128 .f32) (h4 h5 : S256x16x128.ShapeCasts S4096x128) (hb4 hb5 : FTy.bf16.bits < FTy.f32.bits)
    (hc : Shape.Concatenates [S4096x128, S4096x128] S4096x256 1) (p : Fin 256) (k : Fin 16) (j : Fin 256) :
    concatenate S4096x256 1 [⟨S4096x128, truncf .bf16 (shapeCast S4096x128 P4 h4) hb4⟩, ⟨S4096x128, truncf .bf16 (shapeCast S4096x128 P5 h5) hb5⟩] hc (ix2 (row p k) j)
      = catB P4 P5 p k j := by
  unfold catB
  by_cases hj : j.val < 128
  · rw [dif_pos hj, beside_left _ _ hc (row p k) j hj]
    exact fold_apply P4 h4 p k (lo j hj)
  · rw [dif_neg hj, beside_right _ _ hc (row p k) j hj]
    exact fold_apply P5 h5 p k (hi j hj)

/-- The transposed weight block at `(j, q)` is the weight block at `(q, j)`. -/
theorem wcatT_apply (x : FVec Ideal S128x256 .bf16) (h : S128x256.Transposes [1, 0] S256x128) (j : Fin 256) (q : Fin 128) :
    transpose S256x128 [1, 0] x h (ix2 j q) = x (ix2 q j) := transpose_ix2_apply x h j q

/-- The transposed projection block at `(f, q)` is the projection block at `(q, f)`. -/
theorem wT_apply (x : FVec Ideal S128x128 .bf16) (h : S128x128.Transposes [1, 0] S128x128) (f q : Fin 128) :
    transpose S128x128 [1, 0] x h (ix2 f q) = x (ix2 q f) := transpose_ix2_apply x h f q

/-- The exponential of a vector at an index is the exponential of the entry. -/
theorem exp_apply {s : Shape} {φ : FTy} (v : FVec Ideal s φ) (i : s.Idx) : exp v i = Ideal.exp (v i) := rfl

/-- The body's reduced value at `(p, q)` of its block. -/
theorem pay2_apply (P0 : FVec Ideal S128x128 .f32) (P1 : FVec Ideal S128x256 .f32) (P2 : FVec Ideal S128 .f32) (P3 : FVec Ideal S256x128 .f32)
    (P4 P5 : FVec Ideal S256x16x128 .f32) (P6 : FVec Ideal S256x16 .f32) (p : Fin 256) (q : Fin 128) :
    k0_pay2 (F := Ideal) P0 P1 P2 P3 P4 P5 P6 (ix2 p q) = aggB P0 P1 P2 P3 P4 P5 P6 p q := by
  unfold k0_pay2
  refine (Cert.Keepdims3.multiReduction_add_axis1_apply _ _ _ _ _ p q).trans ?_
  unfold aggB
  refine Finset.sum_congr rfl fun k _ => ?_
  simp only [mulf_apply, addf_apply, select_apply, cmpf_apply, broadcast_apply, exp_apply, truncf_apply,
    unfold_apply, Cert.Keepdims3.broadcastTo_a1c_abc_apply, Cert.Keepdims3.shapeCast_ac_a1c_apply,
    Cert.Keepdims3.broadcastTo_ab1_abc_apply, Cert.Keepdims3.shapeCast_ab_ab1_apply,
    broadcastTo_1b_ab_apply, shapeCast_a_1a_apply, mix_apply, nodeProj_apply, transpose_ix2_apply, shapeCast_self, cat_apply]
  simp only [Ideal.ofBits_def, Ideal.cmpf_def]
  have peel : ∀ a b : EReal, a = b →
      Ideal.exp (Scalar.select (Ideal.cmp .ogt a zero32) a (slope * a)) * P6 (ix2 p k) = Ideal.exp (leakyK b) * P6 (ix2 p k) := by
    intro a b h; rw [h]; rfl
  refine peel _ _ ?_
  unfold preB
  refine congrArg₂ (· + ·) (congrArg₂ (· + ·) (Finset.sum_congr rfl fun x _ => ?_) rfl) (Finset.sum_congr rfl fun f _ => ?_)
  · exact congrArg (catB P4 P5 p k x * ·) (wcatT_apply _ _ x q)
  · exact congrArg (P3 (ix2 p f) * ·) (wT_apply _ _ f q)

/-- The block the body leaves at `(p, q)`: the exponential linear unit of the weighted sum plus the bias entry. -/
theorem E8_apply (P0 : FVec Ideal S128x128 .f32) (P1 : FVec Ideal S128x256 .f32) (P2 : FVec Ideal S128 .f32) (P3 : FVec Ideal S256x128 .f32)
    (P4 P5 : FVec Ideal S256x16x128 .f32) (P6 : FVec Ideal S256x16 .f32) (P7 : FVec Ideal S128 .f32) (p : Fin 256) (q : Fin 128) :
    Cert.KernelIdeal.Value.E8 (F := Ideal) P0 P1 P2 P3 P4 P5 P6 P7 (ix2 p q) = eluK (aggB P0 P1 P2 P3 P4 P5 P6 p q + P7 (ix1 q)) := by
  have e0 : Cert.KernelIdeal.Value.ix8_0 (ix2 p q) = ix2 p q := funext fun a => by match a with | ⟨0, _⟩ => rfl | ⟨1, _⟩ => rfl
  have e2 : Cert.KernelIdeal.Value.ix8_2 (ix2 p q) = ix2 p q := funext fun a => by match a with | ⟨0, _⟩ => rfl | ⟨1, _⟩ => rfl
  have e4 : Cert.KernelIdeal.Value.ix8_4 (ix2 p q) = ix2 p q := funext fun a => by match a with | ⟨0, _⟩ => rfl | ⟨1, _⟩ => rfl
  have e1 : Cert.KernelIdeal.Value.ix8_1 (ix2 p q) = ix1 q := funext fun a => by match a with | ⟨0, _⟩ => rfl
  have e3 : Cert.KernelIdeal.Value.ix8_3 (ix2 p q) = ix1 q := funext fun a => by match a with | ⟨0, _⟩ => rfl
  have e5 : Cert.KernelIdeal.Value.ix8_5 (ix2 p q) = ix1 q := funext fun a => by match a with | ⟨0, _⟩ => rfl
  simp only [Cert.KernelIdeal.Value.E8]
  rw [e0, e1, e2, e3, e4, e5, pay2_apply]
  rfl

/-- The block's weighted sum is the array's, once each load is read as the array entry it is: the projection and
    folded-weight blocks whole, the node, neighbour and score blocks at the array row `n` under block row `p`. -/
theorem aggB_eq_aggK
    {X0 : (⟨2, ![32768, 128]⟩ : Shape).Idx → EReal} {X1 X2 : (⟨3, ![32768, 16, 128]⟩ : Shape).Idx → EReal}
    {A : (⟨2, ![32768, 16]⟩ : Shape).Idx → EReal} {W : (⟨2, ![128, 128]⟩ : Shape).Idx → EReal}
    {Wa : (⟨2, ![128, 256]⟩ : Shape).Idx → EReal} {ba : (⟨1, ![128]⟩ : Shape).Idx → EReal}
    (P0 : S128x128.Idx → EReal) (P1 : S128x256.Idx → EReal) (P2 : S128.Idx → EReal) (P3 : S256x128.Idx → EReal)
    (P4 P5 : S256x16x128.Idx → EReal) (P6 : S256x16.Idx → EReal) (n : Fin 32768) (p : Fin 256) (q : Fin 128)
    (h0 : ∀ o f, P0 (ix2 o f) = W (ix2 o f)) (h1 : ∀ o j, P1 (ix2 o j) = wcat W Wa o j) (h2 : ∀ o, P2 (ix1 o) = ba (ix1 o))
    (h3 : ∀ f, P3 (ix2 p f) = X0 (ix2 n f)) (h4 : ∀ k f, P4 (ix3 p k f) = X1 (ix3 n k f))
    (h5 : ∀ k f, P5 (ix3 p k f) = X2 (ix3 n k f)) (h6 : ∀ k, P6 (ix2 p k) = A (ix2 n k)) :
    aggB P0 P1 P2 P3 P4 P5 P6 p q = aggK X0 X1 X2 A W Wa ba n q := by
  unfold aggB aggK
  refine Finset.sum_congr rfl fun k _ => ?_
  rw [h6 k]
  refine congrArg (fun z => Ideal.exp (leakyK z) * A (ix2 n k)) ?_
  unfold preB preK mixK nodeProj
  refine congrArg₂ (· + ·) (congrArg₂ (· + ·) (Finset.sum_congr rfl fun j _ => ?_) (h2 q)) (Finset.sum_congr rfl fun f _ => ?_)
  · rw [h1 q j]
    refine congrArg (· * wcat W Wa q j) ?_
    unfold catB catK
    by_cases hj : j.val < 128
    · rw [dif_pos hj, dif_pos hj]; exact h4 k _
    · rw [dif_neg hj, dif_neg hj]; exact h5 k _
  · rw [h3 f, h0 q f]

end Cert.KernelIdeal.BlockRead

end
-- ==== Proof.ArrayIdx.lean ====
/-
  Which row of the result array a block row is: grid point `t` handles rows `256 · t` to `256 · t + 255`.
-/
import proofs.«163248_j15307263443312_2_alg».proof.Proof.Gen.KernelIdeal.Launch

noncomputable section

namespace Cert.KernelIdeal.ArrayValue

open Cert.KernelIdeal Cert.KernelIdeal.Gen Idealize.ShloMosaic

/-- The grid has 128 points. -/
theorem N128 : cfg0.N = 128 := N_0

/-- Row `p` of point `t`'s block is row `256 · t + p` of the array. -/
abbrev arow (t : Fin cfg0.N) (p : Fin 256) : Fin 32768 :=
  ⟨256 * t.val + p.val, by have := t.isLt; have hN : cfg0.N = 128 := N_0; have := p.isLt; omega⟩

end Cert.KernelIdeal.ArrayValue

end
-- ==== Proof.KernelCover.lean ====
/-
  The result window's blocks tile the result array. The result has 32768 rows of 128 entries and is written back
  in blocks of 256 rows, all 128 columns; the grid has 128 points and point `t`'s block is rows `256 · t` to
  `256 · t + 255`. So entry `(p, q)` of point `t`'s block sits at `(256 · t + p, q)` of the array, and every
  index `(r, q)` of the array lies in the block of point `r / 256`, which writes back.
-/
import proofs.«163248_j15307263443312_2_alg».proof.Proof.Gen.KernelIdeal.Value
import proofs.«163248_j15307263443312_2_alg».proof.Proof.ArrayIdx
import Idealize.ShloMosaic.Lib.ValueIdx

noncomputable section

namespace Cert.KernelIdeal.ArrayValue

open Cert.KernelIdeal Cert.KernelIdeal.Gen Idealize.ShloMosaic Idealize.ShloMosaic.TcCoe Idealize.ShloMosaic.ValueIdx Idealize.SL.Sem

/-- The result window's index map, decided once over the grid: point `t`'s block index is `(t, 0)`. -/
theorem idx_facts8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)

/-- Entry `(p, q)` of point `t`'s block is entry `(256 · t + p, q)` of the array. -/
theorem blk8_emb (t : Fin cfg0.N) (p : Fin 256) (q : Fin 128) :
    ((cfg0.win 8).blk t).view.emb (ix2 p q) = (ix2 (arow t p) q : S32768x128.Idx) := by
  obtain ⟨e0, e1⟩ := idx_facts8 t
  funext a; apply Fin.ext
  match a with
  | ⟨0, _⟩ =>
    show win0_8.index t (0 : Fin 2) * 256 + 1 * p.val = 256 * t.val + p.val
    omega
  | ⟨1, _⟩ =>
    show win0_8.index t (1 : Fin 2) * 128 + 1 * q.val = q.val
    omega

/-- An index of the array is in point `t`'s block iff each coordinate is in the block's range on its axis. -/
theorem mem_blk8 (t : Fin cfg0.N) (i : S32768x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v5).slice (win0_8.rect t)).set ↔ _
  rw [View.set_slice_whole, Rect.mem_set_unit]
  exact Iff.rfl

/-- Every index of the array lies in the block of a point that writes back: row `r` in the block of point `r / 256`. -/
theorem cover8 (i : S32768x128.Idx) : ∃ t : Fin cfg0.N, (cfg0.win 8).flush t = true ∧ i ∈ ((cfg0.win 8).blk t).view.set := by
  have hi0 : (i 0).val < 32768 := (i 0).isLt
  have hi1 : (i 1).val < 128 := (i 1).isLt
  have hN : cfg0.N = 128 := N128
  let t : Fin cfg0.N := ⟨(i 0).val / 256, by omega⟩
  have ht : t.val = (i 0).val / 256 := rfl
  obtain ⟨e0, e1⟩ := idx_facts8 t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 128 ≤ (i 1).val ∧ (i 1).val < win0_8.index t (1 : Fin 2) * 128 + 128
    omega

end Cert.KernelIdeal.ArrayValue

end
-- ==== Proof.KernelHost.lean ====
/-
  The host operations before the region, read at an index. Before its region the program cuts the
  128 × 256 mixing matrix into its two 128 × 128 halves (columns 0–127 and 128–255), multiplies each
  half by the 128 × 128 projection matrix (rows by columns, the left operand contracted on its
  columns, the right on its rows), and lays the two products side by side into 128 × 256. At
  `(o, j)` that array is, for `j < 128`, the sum over `c` of `Wa (o, c) · W (c, j)` and otherwise
  the sum over `c` of `Wa (o, 128 + c) · W (c, j − 128)`: the projection folded into the mixing
  matrix, half by half.
-/
import proofs.«163248_j15307263443312_2_alg».proof.Proof.Gen.KernelIdeal.Frame
import proofs.«163248_j15307263443312_2_alg».proof.Proof.Spec
import proofs.«163248_j15307263443312_2_alg».proof.Proof.LibPlainMatmul
import Idealize.ShloMosaic.Lib.ValueIdx
import Idealize.ShloMosaic.Lib.Pipeline.Value
import Idealize.ShloMosaic.Lib.StableHlo.Run
import Idealize.ShloMosaic.PureOps.Ideal.Laws

open scoped BigOperators

noncomputable section

namespace Cert.KernelIdeal.HostRead

open Cert.KernelIdeal Cert.KernelIdeal.Gen Idealize.ShloMosaic Idealize.ShloMosaic.TcCoe Idealize.ShloMosaic.ValueIdx Idealize.SL.Sem
open Cert.EdgeSum Cert.LibPlainMatmul

/-! ## The operations one at a time -/

/-- A plain rows-by-columns product on the host reads, at (p, q), the sum over the shared axis of the products of
    row p of the left operand and column q of the right. -/
theorem hostDot_plain {m k n : Nat} (wf : DotDims.WF (⟨2, ![m, k]⟩ : Shape) ⟨2, ![k, n]⟩ ⟨2, ![m, n]⟩ [1] [0] [0] [1] [] [])
    {φ₁ φ₂ : FTy} (l : FVec Ideal ⟨2, ![m, k]⟩ φ₁) (r : FVec Ideal ⟨2, ![k, n]⟩ φ₂) (p : Fin m) (q : Fin n) :
    Host.dotGeneral (F := Ideal) (plainDims wf) none l r (ix2 p q) = ∑ c : Fin k, l (ix2 p c) * r (ix2 c q) := by
  show FloatOps.dotGeneral (plainDims wf) none .single l r (ix2 p q) = _
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

variable {α : Type}

/-- The left half of the columns, read at (o, c). -/
theorem sliceLeft_apply (x : S128x256.Idx → α) (h : S128x256.Slices ![0, 0] S128x128) (o c : Fin 128) :
    extractStridedSlice S128x128 ![0, 0] x h (ix2 o c) = x (ix2 o (dn c)) :=
  extractStridedSlice_apply ![0, 0] x h (ix2 o c) (ix2 o (dn c)) fun a =>
    match a with
    | ⟨0, _⟩ => (Nat.zero_add _).symm
    | ⟨1, _⟩ => (Nat.zero_add _).symm

/-- The right half of the columns, read at (o, c). -/
theorem sliceRight_apply (x : S128x256.Idx → α) (h : S128x256.Slices ![0, 128] S128x128) (o c : Fin 128) :
    extractStridedSlice S128x128 ![0, 128] x h (ix2 o c) = x (ix2 o (up c)) :=
  extractStridedSlice_apply ![0, 128] x h (ix2 o c) (ix2 o (up c)) fun a =>
    match a with
    | ⟨0, _⟩ => (Nat.zero_add _).symm
    | ⟨1, _⟩ => rfl

/-- Two 128-column blocks of 128 rows side by side, read in the left half. -/
theorem beside_left (x₁ x₂ : S128x128.Idx → α) (h : Shape.Concatenates [S128x128, S128x128] S128x256 1)
    (r : Fin 128) (j : Fin 256) (hj : j.val < 128) :
    concatenate S128x256 1 [⟨S128x128, x₁⟩, ⟨S128x128, x₂⟩] h (ix2 r j) = x₁ (ix2 r (lo j hj)) :=
  concatenate_pair_apply_left 1 x₁ x₂ h (ix2 r j) rfl (ix2 r (lo j hj)) fun b =>
    match b with | ⟨0, _⟩ => rfl | ⟨1, _⟩ => rfl

/-- Two 128-column blocks of 128 rows side by side, read in the right half. -/
theorem beside_right (x₁ x₂ : S128x128.Idx → α) (h : Shape.Concatenates [S128x128, S128x128] S128x256 1)
    (r : Fin 128) (j : Fin 256) (hj : ¬ j.val < 128) :
    concatenate S128x256 1 [⟨S128x128, x₁⟩, ⟨S128x128, x₂⟩] h (ix2 r j) = x₂ (ix2 r (hi j hj)) :=
  concatenate_pair_apply_right 1 x₁ x₂ h (ix2 r j) rfl rfl (ix2 r (hi j hj))
    (fun b hb => match b, hb with | ⟨0, _⟩, _ => rfl | ⟨1, _⟩, hb => absurd rfl hb)
    (by show (j.val - 128) + 128 = j.val; omega)

/-! ## The five operations composed -/

/-- The array the five operations leave, as a term of the two matrices. -/
def folded (W : FVec Ideal S128x128 .f32) (Wa : FVec Ideal S128x256 .f32) : FVec Ideal S128x256 .f32 :=
  concatenate S128x256 1
    [⟨S128x128, Host.dotGeneral (F := Ideal) dot_S128x128_S128x128_S128x128_1_0_0_1_n_n none
        (extractStridedSlice S128x128 ![0, 0] Wa slices_S128x256_S128x128_0_0) W⟩,
     ⟨S128x128, Host.dotGeneral (F := Ideal) dot_S128x128_S128x128_S128x128_1_0_0_1_n_n none
        (extractStridedSlice S128x128 ![0, 128] Wa slices_S128x256_S128x128_0_128) W⟩]
    concatenates_S128x128_S128x128_S128x256_d1

/-- Read at (o, j) it is the projection folded into the mixing matrix. -/
theorem folded_apply (W : FVec Ideal S128x128 .f32) (Wa : FVec Ideal S128x256 .f32) (o : Fin 128) (j : Fin 256) :
    folded W Wa (ix2 o j) = wcat W Wa o j := by
  unfold folded wcat
  by_cases hj : j.val < 128
  · rw [dif_pos hj, beside_left _ _ _ o j hj]
    refine (hostDot_plain Facts₀.dot_S128x128_S128x128_S128x128_1_0_0_1_n_n_wf _ _ o (lo j hj)).trans ?_
    exact Finset.sum_congr rfl fun c _ => by rw [sliceLeft_apply]
  · rw [dif_neg hj, beside_right _ _ _ o j hj]
    refine (hostDot_plain Facts₀.dot_S128x128_S128x128_S128x128_1_0_0_1_n_n_wf _ _ o (hi j hj)).trans ?_
    exact Finset.sum_congr rfl fun c _ => by rw [sliceRight_apply]

/-! ## What the region finds -/

/-- When the region is entered the fifth operation's buffer holds the composed term of the two matrices as launched. -/
theorem V_main_v4_eq (m : (ℓ : Loc nD τ sig) → Buf (Elt Ideal) ℓ) (c : Dev nD) :
    (V m c main_v4 : S128x256.Idx → EReal)
      = folded (m ((c : Thread nD τ).loc main_arg4) : S128x128.Idx → EReal) (m ((c : Thread nD τ).loc main_arg5) : S128x256.Idx → EReal) := by
  dsimp only [Gen.V, Gen.hostOps0]
  after_results
  rfl

/-- Read at (o, j), the buffer the region finds is the projection folded into the mixing matrix. -/
theorem V_main_v4_apply (m : (ℓ : Loc nD τ sig) → Buf (Elt Ideal) ℓ) (c : Dev nD) (o : Fin 128) (j : Fin 256) :
    (V m c main_v4 : S128x256.Idx → EReal) (ix2 o j)
      = Cert.EdgeSum.wcat (m ((c : Thread nD τ).loc main_arg4) : S128x128.Idx → EReal) (m ((c : Thread nD τ).loc main_arg5) : S128x256.Idx → EReal) o j := by
  rw [V_main_v4_eq, folded_apply]

end Cert.KernelIdeal.HostRead

end
-- ==== Proof.KernelBlocks.lean ====
/-
  Each input window's block at a grid point, read as entries of the argument arrays. Point `t` handles rows
  `256 · t` to `256 · t + 255`: the node, feature, aspect and score windows are cut along the row axis only, so
  entry `p` of their block on that axis is entry `256 · t + p` of the array and every other coordinate is kept;
  the projection, folded-weights, mixing-bias and bias windows are one whole block at every point. A block's
  coordinate on an axis is the block index times the block's extent plus the coordinate inside the block.
-/
import proofs.«163248_j15307263443312_2_alg».proof.Proof.Gen.KernelIdeal.Frame
import proofs.«163248_j15307263443312_2_alg».proof.Proof.ArrayIdx
import proofs.«163248_j15307263443312_2_alg».proof.Proof.KernelHost
import proofs.«163248_j15307263443312_2_alg».proof.Proof.Spec

noncomputable section

namespace Cert.KernelIdeal.ArrayValue

open Cert.KernelIdeal Cert.KernelIdeal.Gen Idealize.ShloMosaic Idealize.ShloMosaic.TcCoe Idealize.ShloMosaic.ValueIdx Idealize.SL.Sem

/-- The printed index maps over the grid: the four row-blocked windows are at block `t` on the row axis and block 0 on
    every other axis; the four whole-array windows are at block 0 on every axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0 :=
  (by decide +kernel : ∀ t : Fin grid0.N, _)

variable (m : (ℓ : Loc nD τ sig) → Buf (Elt Ideal) ℓ) (c : Dev nD) (t : Fin cfg0.N)

/-- Row `p`, column `f` of the node window's block at point `t` is row `256 · t + p`, column `f` of the node array. -/
theorem blk_nodes (p : Fin 256) (f : Fin 128) :
    (iblk m c 0 t : S256x128.Idx → EReal) (ix2 p f)
      = (m ((c : Thread nD τ).loc main_arg0) : S32768x128.Idx → EReal) (ix2 (arow t p) f) := by
  obtain ⟨e0, e1, -⟩ := idx_facts t
  have h : ((cfg0.win 0).blk t).view.emb (ix2 p f) = ix2 (arow t p) f := by
    funext a; apply Fin.ext
    match a with
    | ⟨0, _⟩ => show win0_0.index t (0 : Fin 2) * 256 + 1 * p.val = 256 * t.val + p.val; omega
    | ⟨1, _⟩ => show win0_0.index t (1 : Fin 2) * 128 + 1 * f.val = f.val; omega
  show V m c main_arg0 (((cfg0.win 0).blk t).view.emb (ix2 p f)) = _
  rw [h, V_main_arg0]

/-- Entry `(p, k, f)` of the feature window's block at point `t` is entry `(256 · t + p, k, f)` of the feature array. -/
theorem blk_nbr (p : Fin 256) (k : Fin 16) (f : Fin 128) :
    (iblk m c 1 t : S256x16x128.Idx → EReal) (ix3 p k f)
      = (m ((c : Thread nD τ).loc main_arg1) : S32768x16x128.Idx → EReal) (ix3 (arow t p) k f) := by
  obtain ⟨-, -, e0, e1, e2, -⟩ := idx_facts t
  have h : ((cfg0.win 1).blk t).view.emb (ix3 p k f) = ix3 (arow t p) k f := by
    funext a; apply Fin.ext
    match a with
    | ⟨0, _⟩ => show win0_1.index t (0 : Fin 3) * 256 + 1 * p.val = 256 * t.val + p.val; omega
    | ⟨1, _⟩ => show win0_1.index t (1 : Fin 3) * 16 + 1 * k.val = k.val; omega
    | ⟨2, _⟩ => show win0_1.index t (2 : Fin 3) * 128 + 1 * f.val = f.val; omega
  show V m c main_arg1 (((cfg0.win 1).blk t).view.emb (ix3 p k f)) = _
  rw [h, V_main_arg1]

/-- Entry `(p, k, f)` of the aspect window's block at point `t` is entry `(256 · t + p, k, f)` of the aspect array. -/
theorem blk_asp (p : Fin 256) (k : Fin 16) (f : Fin 128) :
    (iblk m c 2 t : S256x16x128.Idx → EReal) (ix3 p k f)
      = (m ((c : Thread nD τ).loc main_arg2) : S32768x16x128.Idx → EReal) (ix3 (arow t p) k f) := by
  obtain ⟨-, -, -, -, -, e0, e1, e2, -⟩ := idx_facts t
  have h : ((cfg0.win 2).blk t).view.emb (ix3 p k f) = ix3 (arow t p) k f := by
    funext a; apply Fin.ext
    match a with
    | ⟨0, _⟩ => show win0_2.index t (0 : Fin 3) * 256 + 1 * p.val = 256 * t.val + p.val; omega
    | ⟨1, _⟩ => show win0_2.index t (1 : Fin 3) * 16 + 1 * k.val = k.val; omega
    | ⟨2, _⟩ => show win0_2.index t (2 : Fin 3) * 128 + 1 * f.val = f.val; omega
  show V m c main_arg2 (((cfg0.win 2).blk t).view.emb (ix3 p k f)) = _
  rw [h, V_main_arg2]

/-- Entry `(p, k)` of the score window's block at point `t` is entry `(256 · t + p, k)` of the score array. -/
theorem blk_score (p : Fin 256) (k : Fin 16) :
    (iblk m c 3 t : S256x16.Idx → EReal) (ix2 p k)
      = (m ((c : Thread nD τ).loc main_arg3) : S32768x16.Idx → EReal) (ix2 (arow t p) k) := by
  obtain ⟨-, -, -, -, -, -, -, -, e0, e1, -⟩ := idx_facts t
  have h : ((cfg0.win 3).blk t).view.emb (ix2 p k) = ix2 (arow t p) k := by
    funext a; apply Fin.ext
    match a with
    | ⟨0, _⟩ => show win0_3.index t (0 : Fin 2) * 256 + 1 * p.val = 256 * t.val + p.val; omega
    | ⟨1, _⟩ => show win0_3.index t (1 : Fin 2) * 16 + 1 * k.val = k.val; omega
  show V m c main_arg3 (((cfg0.win 3).blk t).view.emb (ix2 p k)) = _
  rw [h, V_main_arg3]

/-- The projection window's block at every point is the whole projection matrix. -/
theorem blk_W (o f : Fin 128) :
    (iblk m c 4 t : S128x128.Idx → EReal) (ix2 o f)
      = (m ((c : Thread nD τ).loc main_arg4) : S128x128.Idx → EReal) (ix2 o f) := by
  obtain ⟨-, -, -, -, -, -, -, -, -, -, e0, e1, -⟩ := idx_facts t
  have h : ((cfg0.win 4).blk t).view.emb (ix2 o f) = ix2 o f := by
    funext a; apply Fin.ext
    match a with
    | ⟨0, _⟩ => show win0_4.index t (0 : Fin 2) * 128 + 1 * o.val = o.val; omega
    | ⟨1, _⟩ => show win0_4.index t (1 : Fin 2) * 128 + 1 * f.val = f.val; omega
  show V m c main_arg4 (((cfg0.win 4).blk t).view.emb (ix2 o f)) = _
  rw [h, V_main_arg4]

/-- The folded-weights window's block at every point is the projection folded into the mixing matrix. -/
theorem blk_wcat (o : Fin 128) (j : Fin 256) :
    (iblk m c 5 t : S128x256.Idx → EReal) (ix2 o j)
      = Cert.EdgeSum.wcat (m ((c : Thread nD τ).loc main_arg4) : S128x128.Idx → EReal)
          (m ((c : Thread nD τ).loc main_arg5) : S128x256.Idx → EReal) o j := by
  obtain ⟨-, -, -, -, -, -, -, -, -, -, -, -, e0, e1, -⟩ := idx_facts t
  have h : ((cfg0.win 5).blk t).view.emb (ix2 o j) = ix2 o j := by
    funext a; apply Fin.ext
    match a with
    | ⟨0, _⟩ => show win0_5.index t (0 : Fin 2) * 128 + 1 * o.val = o.val; omega
    | ⟨1, _⟩ => show win0_5.index t (1 : Fin 2) * 256 + 1 * j.val = j.val; omega
  show (V m c main_v4 : S128x256.Idx → EReal) (((cfg0.win 5).blk t).view.emb (ix2 o j)) = _
  rw [h]
  exact Cert.KernelIdeal.HostRead.V_main_v4_apply m c o j

/-- The mixing-bias window's block at every point is the whole row. -/
theorem blk_ba (o : Fin 128) :
    (iblk m c 6 t : S128.Idx → EReal) (ix1 o) = (m ((c : Thread nD τ).loc main_arg6) : S128.Idx → EReal) (ix1 o) := by
  obtain ⟨-, -, -, -, -, -, -, -, -, -, -, -, -, -, e0, -⟩ := idx_facts t
  have h : ((cfg0.win 6).blk t).view.emb (ix1 o) = ix1 o := by
    funext a; apply Fin.ext
    match a with
    | ⟨0, _⟩ => show win0_6.index t (0 : Fin 1) * 128 + 1 * o.val = o.val; omega
  show V m c main_arg6 (((cfg0.win 6).blk t).view.emb (ix1 o)) = _
  rw [h, V_main_arg6]

/-- The bias window's block at every point is the whole row. -/
theorem blk_bias (o : Fin 128) :
    (iblk m c 7 t : S128.Idx → EReal) (ix1 o) = (m ((c : Thread nD τ).loc main_arg7) : S128.Idx → EReal) (ix1 o) := by
  obtain ⟨-, -, -, -, -, -, -, -, -, -, -, -, -, -, -, e0⟩ := idx_facts t
  have h : ((cfg0.win 7).blk t).view.emb (ix1 o) = ix1 o := by
    funext a; apply Fin.ext
    match a with
    | ⟨0, _⟩ => show win0_7.index t (0 : Fin 1) * 128 + 1 * o.val = o.val; omega
  show V m c main_arg7 (((cfg0.win 7).blk t).view.emb (ix1 o)) = _
  rw [h, V_main_arg7]

end Cert.KernelIdeal.ArrayValue

end
-- ==== Proof.KernelArray.lean ====
/-
  The kernel's result array, from the blocks the grid points write back to the whole array.

  Point `t` of the grid of 128 handles rows `256 · t` to `256 · t + 255`. What it writes back is the body's one store,
  which at row `p` and channel `q` of the block is the exponential linear unit of the attention-weighted sum over the
  block's loads plus the bias entry; each load is the array entry under it (the node, neighbour, aspect and score
  blocks at array row `256 · t + p`, the projection, folded-weight and the two row blocks whole), so the value is
  the specification's `outK` at row `256 · t + p`, channel `q`: block `t` of `arrK`. The blocks cover the array,
  so the array ends holding `arrK` of the arguments.
-/
import proofs.«163248_j15307263443312_2_alg».proof.Proof.Gen.KernelIdeal.Value
import proofs.«163248_j15307263443312_2_alg».proof.Proof.Spec
import proofs.«163248_j15307263443312_2_alg».proof.Proof.Payload
import proofs.«163248_j15307263443312_2_alg».proof.Proof.ArrayIdx
import proofs.«163248_j15307263443312_2_alg».proof.Proof.KernelCover
import proofs.«163248_j15307263443312_2_alg».proof.Proof.KernelBlocks
import Idealize.ShloMosaic.Lib.ValueIdx
import Idealize.ShloMosaic.Lib.Pipeline.Value

noncomputable section

namespace Cert.KernelIdeal.ArrayValue

open Cert.KernelIdeal Cert.KernelIdeal.Gen Cert.KernelIdeal.Value Idealize.ShloMosaic Idealize.ShloMosaic.TcCoe
open Idealize.ShloMosaic.ValueIdx Idealize.SL.Sem Cert.EdgeSum Cert.KernelIdeal.BlockRead
open Idealize.ShloMosaic.Pipeline (Dat)

variable (m : (ℓ : Loc nD τ sig) → Buf (Elt Ideal) ℓ) (ρ : Dev nD → PrngReg)

theorem zeros1 : (![0] : Fin 1 → Nat) = fun _ => 0 := funext fun a => by fin_cases a; rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- What the body leaves in its output block at row `p`, channel `q`, from the eight blocks it loads. -/
theorem out8_apply (x0 : FVec Ideal S256x128 .f32) (x1 x2 : FVec Ideal S256x16x128 .f32) (x3 : FVec Ideal S256x16 .f32)
    (x4 : FVec Ideal S128x128 .f32) (x5 : FVec Ideal S128x256 .f32) (x6 x7 : FVec Ideal S128 .f32)
    (p : Fin 256) (q : Fin 128) :
    out0_8 (F := Ideal) x0 x1 x2 x3 x4 x5 x6 x7 (ix2 p q)
      = eluK (aggB x4 x5 x6 x0 x1 x2 x3 p q + x7 (ix1 q)) := by
  unfold out0_8
  simp only [View.ld_unit_zero (S := S128) zeros1, View.ld_unit_zero (S := S128x128) zeros2,
    View.ld_unit_zero (S := S128x256) zeros2, View.ld_unit_zero (S := S256x128) zeros2,
    View.ld_unit_zero (S := S256x16) zeros2, View.ld_unit_zero (S := S256x16x128) zeros3]
  exact (canon8_eq (F := Ideal) x4 x5 x6 x0 x1 x2 x3 x7 (ix2 p q)).trans (E8_apply x4 x5 x6 x0 x1 x2 x3 x7 p q)

/-- Two blocks of 256 rows and 128 channels that agree at every row and channel are equal. -/
theorem block_ext (X Y : S256x128.Idx → EReal) (h : ∀ (p : Fin 256) (q : Fin 128), X (ix2 p q) = Y (ix2 p q)) :
    X = Y :=
  funext fun y => by rw [eq_ix2 y]; exact h _ _

/-- The specification's array at row `n`, channel `q`. -/
theorem arrK_apply
    (X0 : S32768x128.Idx → EReal) (X1 X2 : S32768x16x128.Idx → EReal) (A : S32768x16.Idx → EReal)
    (W : S128x128.Idx → EReal) (Wa : S128x256.Idx → EReal) (ba bias : S128.Idx → EReal) (n : Fin 32768) (q : Fin 128) :
    arrK X0 X1 X2 A W Wa ba bias (ix2 n q) = eluK (aggK X0 X1 X2 A W Wa ba n q + bias (ix1 q)) := rfl

/-- WHAT POINT `t` WRITES BACK is block `t` of the specification's array of the arguments. -/
theorem flushed_eq (c : Dev nD) (t : Fin cfg0.N) :
    (dats m 0 c).flushed 8 t = ((cfg0.win 8).blk t).view.read (Elt Ideal)
      (arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [flushed8]
  refine block_ext _ _ fun p q => ?_
  refine (out8_apply (iblk m c 0 t) (iblk m c 1 t) (iblk m c 2 t) (iblk m c 3 t) (iblk m c 4 t) (iblk m c 5 t) (iblk m c 6 t) (iblk m c 7 t) p q).trans ?_
  show _ = arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix2 p q))
  rw [blk8_emb t p q, arrK_apply]
  refine congrArg eluK (congrArg₂ (· + ·) ?_ (blk_bias m c t q))
  exact aggB_eq_aggK (iblk m c 4 t) (iblk m c 5 t) (iblk m c 6 t) (iblk m c 0 t) (iblk m c 1 t) (iblk m c 2 t) (iblk m c 3 t) (arow t p) p q
    (blk_W m c t) (blk_wcat m c t) (blk_ba m c t) (blk_nodes m c t p) (blk_nbr m c t p) (blk_asp m c t p) (blk_score m c t p)

/-- THE ARRAY after the run: the specification's array of the arguments (every row is in the block of the point
    `row / 256`, and every point writes its block back). -/
theorem final (c : Dev nD) :
    (dats m 0 c).arrAt 8 cfg0.N
      = arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8
    (arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (fun t _ => flushed_eq m c t) cover8

/-! ## The run, read -/

/-- The frame run re-posted: the result array at the specification's array of the arguments, the arguments unchanged. -/
theorem run : θ_run defs (onTc (τ := τ) (main (F := Ideal))) ⟨m, fun _ => 0, ρ⟩ fun r => ∀ c : Dev nD,
      r.2.mem ((c : Thread nD τ).loc main_v5)
        = arrK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.ArrayValue

end
-- ==== Proof.RefTerm.lean ====
/-
  The reference's result as one pure term of its eight argument arrays: each host operation of the program, in the
  program's order, applied to the values before it (the two outlined functions, the leaky rectifier and the
  exponential linear unit, opened at their calls). Nothing is proved here; the run says the program ends with this
  term in its result buffer, and the reading says what the term is at an index.
-/
import proofs.«163248_j15307263443312_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The leaky rectifier as the program spells it: the test `x ≥ 0`, the slope broadcast, the product, the choice. -/
def leakyTerm (x : FVec F S32768x16x128 .f32) (slope : FVec F S_ .f32) : FVec F S32768x16x128 .f32 :=
  have cst : FVec F S_ .f32 := constant S_ .f32 0x00000000#32
  have v0 : FVec F S32768x16x128 .f32 := broadcastInDim S32768x16x128 ![] bcast_S_S32768x16x128 cst
  have v1 : IVec S32768x16x128 1 := cmpf .oge x v0
  have v2 : FVec F S_ .f32 := id slope
  have v3 : FVec F S32768x16x128 .f32 := broadcastInDim S32768x16x128 ![] bcast_S_S32768x16x128 v2
  have v4 : FVec F S32768x16x128 .f32 := mulf v3 x
  select v1 x v4

/-- The exponential linear unit as the program spells it: the test `x > 0` twice, the argument made 0 where it
    is positive, `exp - 1` of that, the product with 1, the choice. -/
def eluTerm (x : FVec F S32768x128 .f32) : FVec F S32768x128 .f32 :=
  have cst : FVec F S_ .f32 := constant S_ .f32 0x00000000#32
  have v0 : FVec F S32768x128 .f32 := broadcastInDim S32768x128 ![] bcast_S_S32768x128 cst
  have v1 : IVec S32768x128 1 := cmpf .ogt x v0
  have cst_0 : FVec F S_ .f32 := constant S_ .f32 0x00000000#32
  have v2 : FVec F S32768x128 .f32 := broadcastInDim S32768x128 ![] bcast_S_S32768x128 cst_0
  have v3 : IVec S32768x128 1 := cmpf .ogt x v2
  have cst_1 : FVec F S_ .f32 := constant S_ .f32 0x00000000#32
  have w0 : FVec F S_ .f32 := id cst_1
  have w1 : FVec F S32768x128 .f32 := broadcastInDim S32768x128 ![] bcast_S_S32768x128 w0
  have v4 : FVec F S32768x128 .f32 := select v3 w1 x
  have v5 : FVec F S32768x128 .f32 := Host.expm1 v4
  have cst_2 : FVec F S_ .f32 := constant S_ .f32 0x3F800000#32
  have v6 : FVec F S32768x128 .f32 := broadcastInDim S32768x128 ![] bcast_S_S32768x128 cst_2
  have v7 : FVec F S32768x128 .f32 := mulf v6 v5
  select v1 x v7

/-- The pre-activations: the three projections, the two projected neighbour arrays side by side, the mixing, the
    two broadcast rows added. -/
def preTerm (a0 : FVec F S32768x128 .f32) (a1 a2 : FVec F S32768x16x128 .f32) (a4 : FVec F S128x128 .f32)
    (a5 : FVec F S128x256 .f32) (a6 : FVec F S128 .f32) : FVec F S32768x16x128 .f32 :=
  have v0 : FVec F S128x128 .f32 := transpose S128x128 [1, 0] a4 transposes_S128x128_S128x128_1_0
  have v1 : FVec F S32768x128 .f32 := Host.dotGeneral dot_S32768x128_S128x128_S32768x128_1_0_0_1_n_n none a0 v0
  have v2 : FVec F S32768x16x128 .f32 := Host.dotGeneral dot_S32768x16x128_S128x128_S32768x16x128_2_1_01_0_n_n none a1 a4
  have v3 : FVec F S32768x16x128 .f32 := Host.dotGeneral dot_S32768x16x128_S128x128_S32768x16x128_2_1_01_0_n_n none a2 a4
  have v4 : FVec F S32768x16x256 .f32 := concatenate S32768x16x256 2 [⟨S32768x16x128, v2⟩, ⟨S32768x16x128, v3⟩] concatenates_S32768x16x128_S32768x16x128_S32768x16x256_d2
  have v5 : FVec F S32768x16x128 .f32 := Host.dotGeneral dot_S32768x16x256_S128x256_S32768x16x128_2_1_01_0_n_n none v4 a5
  have v6 : FVec F S1x1x128 .f32 := broadcastInDim S1x1x128 ![2] bcast_S128_S1x1x128_2 a6
  have v7 : FVec F S32768x16x128 .f32 := broadcastInDim S32768x16x128 ![0, 1, 2] bcast_S1x1x128_S32768x16x128_0_1_2 v6
  have v8 : FVec F S32768x16x128 .f32 := addf v5 v7
  have v9 : FVec F S32768x1x128 .f32 := broadcastInDim S32768x1x128 ![0, 2] bcast_S32768x128_S32768x1x128_0_2 v1
  have v10 : FVec F S32768x16x128 .f32 := broadcastInDim S32768x16x128 ![0, 1, 2] bcast_S32768x1x128_S32768x16x128_0_1_2 v9
  addf v8 v10

/-- The whole reference: pre-activations, rectifier, exponential, attention weights, the sum over the neighbour
    axis from the zero word, the bias row, the exponential linear unit. -/
def refTerm (a0 : FVec F S32768x128 .f32) (a1 a2 : FVec F S32768x16x128 .f32) (a3 : FVec F S32768x16 .f32)
    (a4 : FVec F S128x128 .f32) (a5 : FVec F S128x256 .f32) (a6 a7 : FVec F S128 .f32) : FVec F S32768x128 .f32 :=
  have v11 : FVec F S32768x16x128 .f32 := preTerm a0 a1 a2 a4 a5 a6
  have cst : FVec F S_ .f32 := constant S_ .f32 0x3E4CCCCD#32
  have v12 : FVec F S32768x16x128 .f32 := leakyTerm v11 cst
  have v13 : FVec F S32768x16x128 .f32 := Host.exp v12
  have v14 : FVec F S32768x16x1 .f32 := broadcastInDim S32768x16x1 ![0, 1] bcast_S32768x16_S32768x16x1_0_1 a3
  have v15 : FVec F S32768x16x128 .f32 := broadcastInDim S32768x16x128 ![0, 1, 2] bcast_S32768x16x1_S32768x16x128_0_1_2 v14
  have v16 : FVec F S32768x16x128 .f32 := mulf v13 v15
  have cst_0 : FVec F S_ .f32 := constant S_ .f32 0x00000000#32
  have v17 : FVec F S32768x128 .f32 := Host.reduceAdd v16 cst_0 reducesTo_S32768x16x128_S32768x128_d1 h_S_
  have v18 : FVec F S1x128 .f32 := broadcastInDim S1x128 ![1] bcast_S128_S1x128_1 a7
  have v19 : FVec F S32768x128 .f32 := broadcastInDim S32768x128 ![0, 1] bcast_S1x128_S32768x128_0_1 v18
  have v20 : FVec F S32768x128 .f32 := addf v17 v19
  eluTerm v20

end Cert.ReferenceIdeal.RefValue

end
-- ==== Proof.RefRun.lean ====
/-
  The reference program's run. Its entry function, with the two outlined functions (the leaky rectifier and the
  exponential linear unit, and the selections they call in turn) opened at their calls, is one straight line of
  44 host operations, each writing a buffer of its own. Every execution of it terminates with the result buffer
  holding the composed term of the eight arguments, and the arguments unchanged.
-/
import proofs.«163248_j15307263443312_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function's operations in order, the outlined functions' operations listed at their calls over the
    calls' buffer records. -/
abbrev ops : List (HloOp τ sig (Elt F)) :=
  [ unary main_arg4 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S32768x128_S128x128_S32768x128_1_0_0_1_n_n none l r) : (⟨S32768x128, .f32⟩ : BufTy).Contents (Elt F) → (⟨S128x128, .f32⟩ : BufTy).Contents (Elt F) → (⟨S32768x128, .f32⟩ : BufTy).Contents (Elt F)),
    binary main_arg1 main_arg4 main_v2 ((fun l r => Host.dotGeneral dot_S32768x16x128_S128x128_S32768x16x128_2_1_01_0_n_n none l r) : (⟨S32768x16x128, .f32⟩ : BufTy).Contents (Elt F) → (⟨S128x128, .f32⟩ : BufTy).Contents (Elt F) → (⟨S32768x16x128, .f32⟩ : BufTy).Contents (Elt F)),
    binary main_arg2 main_arg4 main_v3 ((fun l r => Host.dotGeneral dot_S32768x16x128_S128x128_S32768x16x128_2_1_01_0_n_n none l r) : (⟨S32768x16x128, .f32⟩ : BufTy).Contents (Elt F) → (⟨S128x128, .f32⟩ : BufTy).Contents (Elt F) → (⟨S32768x16x128, .f32⟩ : BufTy).Contents (Elt F)),
    binary main_v2 main_v3 main_v4 ((fun a b => concatenate S32768x16x256 2 [⟨S32768x16x128, a⟩, ⟨S32768x16x128, b⟩] concatenates_S32768x16x128_S32768x16x128_S32768x16x256_d2) : (⟨S32768x16x128, .f32⟩ : BufTy).Contents (Elt F) → (⟨S32768x16x128, .f32⟩ : BufTy).Contents (Elt F) → (⟨S32768x16x256, .f32⟩ : BufTy).Contents (Elt F)),
    binary main_v4 main_arg5 main_v5 ((fun l r => Host.dotGeneral dot_S32768x16x256_S128x256_S32768x16x128_2_1_01_0_n_n none l r) : (⟨S32768x16x256, .f32⟩ : BufTy).Contents (Elt F) → (⟨S128x256, .f32⟩ : BufTy).Contents (Elt F) → (⟨S32768x16x128, .f32⟩ : BufTy).Contents (Elt F)),
    unary main_arg6 main_v6 (broadcastInDim S1x1x128 ![2] bcast_S128_S1x1x128_2 : (⟨S128, .f32⟩ : BufTy).Contents (Elt F) → (⟨S1x1x128, .f32⟩ : BufTy).Contents (Elt F)),
    unary main_v6 main_v7 (broadcastInDim S32768x16x128 ![0, 1, 2] bcast_S1x1x128_S32768x16x128_0_1_2 : (⟨S1x1x128, .f32⟩ : BufTy).Contents (Elt F) → (⟨S32768x16x128, .f32⟩ : BufTy).Contents (Elt F)),
    binary main_v5 main_v7 main_v8 (addf : (⟨S32768x16x128, .f32⟩ : BufTy).Contents (Elt F) → (⟨S32768x16x128, .f32⟩ : BufTy).Contents (Elt F) → (⟨S32768x16x128, .f32⟩ : BufTy).Contents (Elt F)),
    unary main_v1 main_v9 (broadcastInDim S32768x1x128 ![0, 2] bcast_S32768x128_S32768x1x128_0_2 : (⟨S32768x128, .f32⟩ : BufTy).Contents (Elt F) → (⟨S32768x1x128, .f32⟩ : BufTy).Contents (Elt F)),
    unary main_v9 main_v10 (broadcastInDim S32768x16x128 ![0, 1, 2] bcast_S32768x1x128_S32768x16x128_0_1_2 : (⟨S32768x1x128, .f32⟩ : BufTy).Contents (Elt F) → (⟨S32768x16x128, .f32⟩ : BufTy).Contents (Elt F)),
    binary main_v8 main_v10 main_v11 (addf : (⟨S32768x16x128, .f32⟩ : BufTy).Contents (Elt F) → (⟨S32768x16x128, .f32⟩ : BufTy).Contents (Elt F) → (⟨S32768x16x128, .f32⟩ : BufTy).Contents (Elt F)),
    nullary main_cst (constant S_ .f32 0x3E4CCCCD#32),
    TRef.nullary main_call0.cst (constant S_ .f32 0x00000000#32),
    TRef.unary main_call0.cst main_call0.v0 (broadcastInDim S32768x16x128 ![] bcast_S_S32768x16x128),
    TRef.binary (.of main_v11 : TRef sig ⟨S32768x16x128, .f32⟩) main_call0.v0 main_call0.v1 (cmpf .oge),
    TRef.unary (.of main_cst : TRef sig ⟨S_, .f32⟩) main_call0.v2 id,
    TRef.unary main_call0.v2 main_call0.v3 (broadcastInDim S32768x16x128 ![] bcast_S_S32768x16x128),
    TRef.binary main_call0.v3 (.of main_v11 : TRef sig ⟨S32768x16x128, .f32⟩) main_call0.v4 mulf,
    TRef.ternary main_call0.v1 (.of main_v11 : TRef sig ⟨S32768x16x128, .f32⟩) main_call0.v4 main_call0.call0.v0 select,
    unary main_v12 main_v13 (Host.exp : (⟨S32768x16x128, .f32⟩ : BufTy).Contents (Elt F) → (⟨S32768x16x128, .f32⟩ : BufTy).Contents (Elt F)),
    unary main_arg3 main_v14 (broadcastInDim S32768x16x1 ![0, 1] bcast_S32768x16_S32768x16x1_0_1 : (⟨S32768x16, .f32⟩ : BufTy).Contents (Elt F) → (⟨S32768x16x1, .f32⟩ : BufTy).Contents (Elt F)),
    unary main_v14 main_v15 (broadcastInDim S32768x16x128 ![0, 1, 2] bcast_S32768x16x1_S32768x16x128_0_1_2 : (⟨S32768x16x1, .f32⟩ : BufTy).Contents (Elt F) → (⟨S32768x16x128, .f32⟩ : BufTy).Contents (Elt F)),
    binary main_v13 main_v15 main_v16 (mulf : (⟨S32768x16x128, .f32⟩ : BufTy).Contents (Elt F) → (⟨S32768x16x128, .f32⟩ : BufTy).Contents (Elt F) → (⟨S32768x16x128, .f32⟩ : BufTy).Contents (Elt F)),
    nullary main_cst_0 (constant S_ .f32 0x00000000#32),
    binary main_v16 main_cst_0 main_v17 ((fun x v => Host.reduceAdd x v reducesTo_S32768x16x128_S32768x128_d1 h_S_) : (⟨S32768x16x128, .f32⟩ : BufTy).Contents (Elt F) → (⟨S_, .f32⟩ : BufTy).Contents (Elt F) → (⟨S32768x128, .f32⟩ : BufTy).Contents (Elt F)),
    unary main_arg7 main_v18 (broadcastInDim S1x128 ![1] bcast_S128_S1x128_1 : (⟨S128, .f32⟩ : BufTy).Contents (Elt F) → (⟨S1x128, .f32⟩ : BufTy).Contents (Elt F)),
    unary main_v18 main_v19 (broadcastInDim S32768x128 ![0, 1] bcast_S1x128_S32768x128_0_1 : (⟨S1x128, .f32⟩ : BufTy).Contents (Elt F) → (⟨S32768x128, .f32⟩ : BufTy).Contents (Elt F)),
    binary main_v17 main_v19 main_v20 (addf : (⟨S32768x128, .f32⟩ : BufTy).Contents (Elt F) → (⟨S32768x128, .f32⟩ : BufTy).Contents (Elt F) → (⟨S32768x128, .f32⟩ : BufTy).Contents (Elt F)),
    TRef.nullary main_call1.cst (constant S_ .f32 0x00000000#32),
    TRef.unary main_call1.cst main_call1.v0 (broadcastInDim S32768x128 ![] bcast_S_S32768x128),
    TRef.binary (.of main_v20 : TRef sig ⟨S32768x128, .f32⟩) main_call1.v0 main_call1.v1 (cmpf .ogt),
    TRef.nullary main_call1.cst_0 (constant S_ .f32 0x00000000#32),
    TRef.unary main_call1.cst_0 main_call1.v2 (broadcastInDim S32768x128 ![] bcast_S_S32768x128),
    TRef.binary (.of main_v20 : TRef sig ⟨S32768x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S32768x128 ![] bcast_S_S32768x128),
    TRef.ternary main_call1.v3 main_call1.call0.v1 (.of main_v20 : TRef sig ⟨S32768x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S32768x128 ![] bcast_S_S32768x128),
    TRef.binary main_call1.v6 main_call1.v5 main_call1.v7 mulf,
    TRef.ternary main_call1.v1 (.of main_v20 : TRef sig ⟨S32768x128, .f32⟩) main_call1.v7 main_call1.call1.v0 select ]

set_option maxRecDepth 1024 in
/-- The entry function is that straight line: the outlined functions unfolded at their calls, sequencing reassociated. -/
theorem main_eq (c : Dev nD) : main (F := F) c = seq ops := by
  simp only [main, fn_leaky_relu.body, fn_where.body, fn_elu.body, fn_where_0.body, fn_where_1.body, seq, bind_assoc, pure_bind]

/-- The signature scopes no buffer of the core. -/
theorem scopedRefs_eq : (Finset.univ.filter fun b : Ref sig .tc => b.isScoped) = ∅ := by decide
/-- The signature scopes no semaphore of the core. -/
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨unary_bufs_sub .., binary_bufs_sub .., binary_bufs_sub .., binary_bufs_sub .., binary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., unary_bufs_sub .., unary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- Every buffer of the device after the run is the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

set_option maxRecDepth 8192 in
/-- The result buffer after the line, from any contents: each operation's result read at its own buffer and passed
    over at every other, down to the arguments; the two projected neighbour arrays sit inside the list the
    concatenation takes and are read there by rewriting; what is left is the composed term, up to the identity
    transports of the outlined functions' typed references. -/
theorem out_eq (V : Valuation τ sig (Elt F)) :
    after ops V (main_v21 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  after_results_simp
  repeat (first
    | rw [binary_result] | rw [unary_result]
    | (rw [unary_result_ne]; rotate_left; decide)
    | (rw [binary_result_ne]; rotate_left; decide))
  rfl

/-! No operation writes an argument's buffer. -/

/-- The first argument's buffer keeps its contents along the line. -/
theorem arg0_eq (V : Valuation τ sig (Elt F)) :
    after ops V (main_arg0 : DevRef τ sig) = V (main_arg0 : DevRef τ sig) := by
  after_results_simp

/-- The second argument's buffer keeps its contents along the line. -/
theorem arg1_eq (V : Valuation τ sig (Elt F)) :
    after ops V (main_arg1 : DevRef τ sig) = V (main_arg1 : DevRef τ sig) := by
  after_results_simp

/-- The third argument's buffer keeps its contents along the line. -/
theorem arg2_eq (V : Valuation τ sig (Elt F)) :
    after ops V (main_arg2 : DevRef τ sig) = V (main_arg2 : DevRef τ sig) := by
  after_results_simp

/-- The fourth argument's buffer keeps its contents along the line. -/
theorem arg3_eq (V : Valuation τ sig (Elt F)) :
    after ops V (main_arg3 : DevRef τ sig) = V (main_arg3 : DevRef τ sig) := by
  after_results_simp

/-- The fifth argument's buffer keeps its contents along the line. -/
theorem arg4_eq (V : Valuation τ sig (Elt F)) :
    after ops V (main_arg4 : DevRef τ sig) = V (main_arg4 : DevRef τ sig) := by
  after_results_simp

/-- The sixth argument's buffer keeps its contents along the line. -/
theorem arg5_eq (V : Valuation τ sig (Elt F)) :
    after ops V (main_arg5 : DevRef τ sig) = V (main_arg5 : DevRef τ sig) := by
  after_results_simp

/-- The seventh argument's buffer keeps its contents along the line. -/
theorem arg6_eq (V : Valuation τ sig (Elt F)) :
    after ops V (main_arg6 : DevRef τ sig) = V (main_arg6 : DevRef τ sig) := by
  after_results_simp

/-- The eighth argument's buffer keeps its contents along the line. -/
theorem arg7_eq (V : Valuation τ sig (Elt F)) :
    after ops V (main_arg7 : DevRef τ sig) = V (main_arg7 : DevRef τ sig) := by
  after_results_simp

/-- On every device, for any float values, from any memory with zero counters: every weakly fair execution of the
    entry function terminates with the result buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v21).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_all m ρ)

end Cert.ReferenceIdeal.RefValue

end
-- ==== Proof.RefReadOps.lean ====
/-
  The reference's operations read at an index: each of its three matrix products as a sum over the contracted
  coordinate, the two arrays laid side by side as a case split on the column, and each broadcast as the operand at
  the coordinates it keeps.
-/
import proofs.«163248_j15307263443312_2_alg».proof.Proof.RefTerm
import proofs.«163248_j15307263443312_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefRead

open Cert.ReferenceIdeal Cert.ReferenceIdeal.Gen Idealize.ShloMosaic Idealize.ShloMosaic.ValueIdx

/-- The node product: rows of the left operand against columns of the right one. -/
theorem dot_node_apply (A : FVec Ideal S32768x128 .f32) (B : FVec Ideal S128x128 .f32) (n : Fin 32768) (o : Fin 128) :
    Host.dotGeneral (F := Ideal) dot_S32768x128_S128x128_S32768x128_1_0_0_1_n_n none A B (ix2 n o)
      = ∑ f : Fin 128, A (ix2 n f) * B (ix2 f o) := by
  show FloatOps.dotGeneral _ none _ A B (ix2 n o) = _
  rw [Ideal.dotGeneral_apply,
    ← Equiv.sum_comp (contrEquiv1 dot_S32768x128_S128x128_S32768x128_1_0_0_1_n_n 128 rfl rfl).symm]
  refine Finset.sum_congr rfl fun c _ => ?_
  have c2 := contrEquiv1_symm_val dot_S32768x128_S128x128_S32768x128_1_0_0_1_n_n 128 rfl rfl c
  have l2 : dot_S32768x128_S128x128_S32768x128_1_0_0_1_n_n.lhsIdx (ix2 n o)
      ((contrEquiv1 _ 128 rfl rfl).symm c) = ix2 n c := by
    funext ax; apply Fin.ext
    match ax with
    | ⟨0, _⟩ => rfl
    | ⟨1, _⟩ => exact c2
  have r2 : dot_S32768x128_S128x128_S32768x128_1_0_0_1_n_n.rhsIdx (ix2 n o)
      ((contrEquiv1 _ 128 rfl rfl).symm c) = ix2 c o := by
    funext ax; apply Fin.ext
    match ax with
    | ⟨0, _⟩ => exact c2
    | ⟨1, _⟩ => rfl
  rw [l2, r2]

/-- A neighbour product: rows of the rank-3 left operand against rows of the right one. -/
theorem dot_nbr_apply (A : FVec Ideal S32768x16x128 .f32) (B : FVec Ideal S128x128 .f32)
    (n : Fin 32768) (k : Fin 16) (c : Fin 128) :
    Host.dotGeneral (F := Ideal) dot_S32768x16x128_S128x128_S32768x16x128_2_1_01_0_n_n none A B (ix3 n k c)
      = ∑ f : Fin 128, A (ix3 n k f) * B (ix2 c f) := by
  show FloatOps.dotGeneral _ none _ A B (ix3 n k c) = _
  rw [Ideal.dotGeneral_apply,
    ← Equiv.sum_comp (contrEquiv1 dot_S32768x16x128_S128x128_S32768x16x128_2_1_01_0_n_n 128 rfl rfl).symm]
  refine Finset.sum_congr rfl fun f _ => ?_
  have c2 := contrEquiv1_symm_val dot_S32768x16x128_S128x128_S32768x16x128_2_1_01_0_n_n 128 rfl rfl f
  have l2 : dot_S32768x16x128_S128x128_S32768x16x128_2_1_01_0_n_n.lhsIdx (ix3 n k c)
      ((contrEquiv1 _ 128 rfl rfl).symm f) = ix3 n k f := by
    funext ax; apply Fin.ext
    match ax with
    | ⟨0, _⟩ => rfl
    | ⟨1, _⟩ => rfl
    | ⟨2, _⟩ => exact c2
  have r2 : dot_S32768x16x128_S128x128_S32768x16x128_2_1_01_0_n_n.rhsIdx (ix3 n k c)
      ((contrEquiv1 _ 128 rfl rfl).symm f) = ix2 c f := by
    funext ax; apply Fin.ext
    match ax with
    | ⟨0, _⟩ => rfl
    | ⟨1, _⟩ => exact c2
  rw [l2, r2]

/-- The mixing product: rows of the 256-wide left operand against rows of the right one. -/
theorem dot_mix_apply (A : FVec Ideal S32768x16x256 .f32) (B : FVec Ideal S128x256 .f32)
    (n : Fin 32768) (k : Fin 16) (o : Fin 128) :
    Host.dotGeneral (F := Ideal) dot_S32768x16x256_S128x256_S32768x16x128_2_1_01_0_n_n none A B (ix3 n k o)
      = ∑ j : Fin 256, A (ix3 n k j) * B (ix2 o j) := by
  show FloatOps.dotGeneral _ none _ A B (ix3 n k o) = _
  rw [Ideal.dotGeneral_apply,
    ← Equiv.sum_comp (contrEquiv1 dot_S32768x16x256_S128x256_S32768x16x128_2_1_01_0_n_n 256 rfl rfl).symm]
  refine Finset.sum_congr rfl fun j _ => ?_
  have c2 := contrEquiv1_symm_val dot_S32768x16x256_S128x256_S32768x16x128_2_1_01_0_n_n 256 rfl rfl j
  have l2 : dot_S32768x16x256_S128x256_S32768x16x128_2_1_01_0_n_n.lhsIdx (ix3 n k o)
      ((contrEquiv1 _ 256 rfl rfl).symm j) = ix3 n k j := by
    funext ax; apply Fin.ext
    match ax with
    | ⟨0, _⟩ => rfl
    | ⟨1, _⟩ => rfl
    | ⟨2, _⟩ => exact c2
  have r2 : dot_S32768x16x256_S128x256_S32768x16x128_2_1_01_0_n_n.rhsIdx (ix3 n k o)
      ((contrEquiv1 _ 256 rfl rfl).symm j) = ix2 o j := by
    funext ax; apply Fin.ext
    match ax with
    | ⟨0, _⟩ => rfl
    | ⟨1, _⟩ => exact c2
  rw [l2, r2]

variable {α : Type}

/-- The two arrays laid side by side along the last axis read, at column `j`, the first below 128 and the second
    from 128 on. -/
theorem concat_apply (x₁ x₂ : S32768x16x128.Idx → α)
    (h : Shape.Concatenates [S32768x16x128, S32768x16x128] S32768x16x256 2) (n : Fin 32768) (k : Fin 16) (j : Fin 256) :
    concatenate S32768x16x256 2 [⟨S32768x16x128, x₁⟩, ⟨S32768x16x128, x₂⟩] h (ix3 n k j)
      = if hj : j.val < 128 then x₁ (ix3 n k (⟨j.val, hj⟩ : Fin 128))
        else x₂ (ix3 n k (⟨j.val - 128, by have := j.isLt; omega⟩ : Fin 128)) := by
  split
  · next hj =>
    refine concatenate_pair_apply_left (2 : Fin 3) x₁ x₂ h (ix3 n k j) rfl _ fun b => ?_
    match b with
    | ⟨0, _⟩ => rfl
    | ⟨1, _⟩ => rfl
    | ⟨2, _⟩ => rfl
  · next hj =>
    refine concatenate_pair_apply_right (2 : Fin 3) x₁ x₂ h (ix3 n k j) rfl rfl _ (fun b hb => ?_) ?_
    · match b with
      | ⟨0, _⟩ => rfl
      | ⟨1, _⟩ => rfl
      | ⟨2, _⟩ => exact absurd rfl hb
    · show (j.val - 128) + 128 = j.val
      omega

/-- A row placed on the last axis of a `[1, 1, 128]` array. -/
theorem bcast_row_11c (x : S128.Idx → α) (h : S128.BroadcastsInDim S1x1x128 (![2] : Fin 1 → Fin S1x1x128.rank))
    (u v : Fin 1) (o : Fin 128) : broadcastInDim S1x1x128 ![2] h x (ix3 u v o) = x (ix1 o) :=
  broadcastInDim_apply _ h x _ _ fun a => match a with | ⟨0, _⟩ => rfl

/-- A `[1, 1, 128]` array spread over the first two axes. -/
theorem bcast_11c_abc (x : S1x1x128.Idx → α)
    (h : S1x1x128.BroadcastsInDim S32768x16x128 (![0, 1, 2] : Fin 3 → Fin S32768x16x128.rank))
    (n : Fin 32768) (k : Fin 16) (o : Fin 128) :
    broadcastInDim S32768x16x128 ![0, 1, 2] h x (ix3 n k o) = x (ix3 (0 : Fin 1) (0 : Fin 1) o) :=
  broadcastInDim_apply _ h x _ _ fun a => match a with | ⟨0, _⟩ => rfl | ⟨1, _⟩ => rfl | ⟨2, _⟩ => rfl

/-- A matrix given a unit middle axis. -/
theorem bcast_ac_a1c (x : S32768x128.Idx → α)
    (h : S32768x128.BroadcastsInDim S32768x1x128 (![0, 2] : Fin 2 → Fin S32768x1x128.rank))
    (n : Fin 32768) (u : Fin 1) (o : Fin 128) :
    broadcastInDim S32768x1x128 ![0, 2] h x (ix3 n u o) = x (ix2 n o) :=
  broadcastInDim_apply _ h x _ _ fun a => match a with | ⟨0, _⟩ => rfl | ⟨1, _⟩ => rfl

/-- A unit middle axis spread over the 16 neighbours. -/
theorem bcast_a1c_abc (x : S32768x1x128.Idx → α)
    (h : S32768x1x128.BroadcastsInDim S32768x16x128 (![0, 1, 2] : Fin 3 → Fin S32768x16x128.rank))
    (n : Fin 32768) (k : Fin 16) (o : Fin 128) :
    broadcastInDim S32768x16x128 ![0, 1, 2] h x (ix3 n k o) = x (ix3 n (0 : Fin 1) o) :=
  broadcastInDim_apply _ h x _ _ fun a => match a with | ⟨0, _⟩ => rfl | ⟨1, _⟩ => rfl | ⟨2, _⟩ => rfl

/-- A matrix given a unit last axis. -/
theorem bcast_ab_ab1 (x : S32768x16.Idx → α)
    (h : S32768x16.BroadcastsInDim S32768x16x1 (![0, 1] : Fin 2 → Fin S32768x16x1.rank))
    (n : Fin 32768) (k : Fin 16) (u : Fin 1) :
    broadcastInDim S32768x16x1 ![0, 1] h x (ix3 n k u) = x (ix2 n k) :=
  broadcastInDim_apply _ h x _ _ fun a => match a with | ⟨0, _⟩ => rfl | ⟨1, _⟩ => rfl

/-- A unit last axis spread over the 128 channels. -/
theorem bcast_ab1_abc (x : S32768x16x1.Idx → α)
    (h : S32768x16x1.BroadcastsInDim S32768x16x128 (![0, 1, 2] : Fin 3 → Fin S32768x16x128.rank))
    (n : Fin 32768) (k : Fin 16) (o : Fin 128) :
    broadcastInDim S32768x16x128 ![0, 1, 2] h x (ix3 n k o) = x (ix3 n k (0 : Fin 1)) :=
  broadcastInDim_apply _ h x _ _ fun a => match a with | ⟨0, _⟩ => rfl | ⟨1, _⟩ => rfl | ⟨2, _⟩ => rfl

/-- A row placed on the last axis of a `[1, 128]` array. -/
theorem bcast_row_1c (x : S128.Idx → α) (h : S128.BroadcastsInDim S1x128 (![1] : Fin 1 → Fin S1x128.rank))
    (u : Fin 1) (o : Fin 128) : broadcastInDim S1x128 ![1] h x (ix2 u o) = x (ix1 o) :=
  broadcastInDim_apply _ h x _ _ fun a => match a with | ⟨0, _⟩ => rfl

/-- A `[1, 128]` array spread over the nodes. -/
theorem bcast_1c_ac (x : S1x128.Idx → α)
    (h : S1x128.BroadcastsInDim S32768x128 (![0, 1] : Fin 2 → Fin S32768x128.rank))
    (n : Fin 32768) (o : Fin 128) :
    broadcastInDim S32768x128 ![0, 1] h x (ix2 n o) = x (ix2 (0 : Fin 1) o) :=
  broadcastInDim_apply _ h x _ _ fun a => match a with | ⟨0, _⟩ => rfl | ⟨1, _⟩ => rfl

end Cert.ReferenceIdeal.RefRead

end
-- ==== Proof.RefReadPre.lean ====
/-
  The reference's composed pieces read at an index: the pre-activation term is the projected-first pre-activation,
  the rectifier and the exponential linear unit act element by element, and the reduction over the neighbour axis is
  the initial value plus the sum over the 16 neighbours.
-/
import proofs.«163248_j15307263443312_2_alg».proof.Proof.RefReadOps
import proofs.«163248_j15307263443312_2_alg».proof.Proof.LibKeepdims3

noncomputable section

open scoped BigOperators

namespace Cert.ReferenceIdeal.RefRead

open Cert.ReferenceIdeal Cert.ReferenceIdeal.Gen Cert.ReferenceIdeal.RefValue Idealize.ShloMosaic
  Idealize.ShloMosaic.ValueIdx Cert.EdgeSum

/-- The pre-activation term at edge `(n, k)`, channel `o`. -/
theorem preTerm_apply (a0 : FVec Ideal S32768x128 .f32) (a1 a2 : FVec Ideal S32768x16x128 .f32)
    (a4 : FVec Ideal S128x128 .f32) (a5 : FVec Ideal S128x256 .f32) (a6 : FVec Ideal S128 .f32)
    (n : Fin 32768) (k : Fin 16) (o : Fin 128) :
    preTerm (F := Ideal) a0 a1 a2 a4 a5 a6 (ix3 n k o) = preR a0 a1 a2 a4 a5 a6 n k o := by
  simp only [preTerm, preR, mixR, catR, proj, nodeProj, addf_apply]
  rw [dot_mix_apply, bcast_11c_abc, bcast_row_11c, bcast_a1c_abc, bcast_ac_a1c, dot_node_apply]
  congr 1
  · congr 1
    refine Finset.sum_congr rfl fun j _ => ?_
    rw [concat_apply]
    congr 1
    split <;> rw [dot_nbr_apply]
  · refine Finset.sum_congr rfl fun f _ => ?_
    rw [transpose_ix2_apply]

/-- The rectifier term at an index is the rectifier of the element. -/
theorem leakyTerm_apply (x : FVec Ideal S32768x16x128 .f32) (i : S32768x16x128.Idx) :
    leakyTerm (F := Ideal) x (constant S_ .f32 0x3E4CCCCD#32) i = leakyR (x i) := rfl

/-- The exponential linear unit term at an index is the unit of the element. -/
theorem eluTerm_apply (x : FVec Ideal S32768x128 .f32) (i : S32768x128.Idx) :
    eluTerm (F := Ideal) x i = eluR (x i) := rfl

/-- The sum over the neighbour axis from an initial value. -/
theorem reduce_apply (x : FVec Ideal S32768x16x128 .f32) (init : FVec Ideal S_ .f32) (n : Fin 32768) (o : Fin 128) :
    Host.reduceAdd (F := Ideal) x init reducesTo_S32768x16x128_S32768x128_d1 h_S_ (ix2 n o)
      = init (Shape.Idx.first h_S_) + ∑ k : Fin 16, x (ix3 n k o) := by
  have h : S32768x16x128.Reduces [1] S32768x128 := by decide
  refine (Ideal.hostReduceAdd_single reducesTo_S32768x16x128_S32768x128_d1 h x _ (ix2 n o)).trans ?_
  exact congrArg (init (Shape.Idx.first h_S_) + ·)
    (Finset.sum_congr rfl fun k _ => congrArg x (Cert.Keepdims3.lift_axis1 h n o k))

end Cert.ReferenceIdeal.RefRead

end
-- ==== Proof.RefRead.lean ====
/-
  The reference's result term equals the projected-first specification as an array: at node `n` and channel `o`
  the term is the exponential linear unit of the attention-weighted sum over the neighbours plus the bias.
-/
import proofs.«163248_j15307263443312_2_alg».proof.Proof.RefReadPre

noncomputable section

open scoped BigOperators

namespace Cert.ReferenceIdeal.RefRead

open Cert.ReferenceIdeal Cert.ReferenceIdeal.Gen Cert.ReferenceIdeal.RefValue Idealize.ShloMosaic
  Idealize.ShloMosaic.ValueIdx Cert.EdgeSum

/-- The reference's term is the projected-first specification, index by index. -/
theorem refTerm_eq (a0 : FVec Ideal S32768x128 .f32) (a1 a2 : FVec Ideal S32768x16x128 .f32) (a3 : FVec Ideal S32768x16 .f32)
    (a4 : FVec Ideal S128x128 .f32) (a5 : FVec Ideal S128x256 .f32) (a6 a7 : FVec Ideal S128 .f32) :
    Cert.ReferenceIdeal.RefValue.refTerm (F := Ideal) a0 a1 a2 a3 a4 a5 a6 a7 = Cert.EdgeSum.arrR a0 a1 a2 a3 a4 a5 a6 a7 := by
  funext i
  obtain ⟨n, o, rfl⟩ : ∃ (n : Fin 32768) (o : Fin 128), i = ix2 n o := ⟨i 0, i 1, eq_ix2 i⟩
  show refTerm (F := Ideal) a0 a1 a2 a3 a4 a5 a6 a7 (ix2 n o) = outR a0 a1 a2 a3 a4 a5 a6 a7 n o
  simp only [refTerm, outR, aggR]
  rw [eluTerm_apply, addf_apply, reduce_apply, bcast_1c_ac, bcast_row_1c]
  congr 2
  refine congrArg (zero32 + ·) (Finset.sum_congr rfl fun k _ => ?_)
  rw [mulf_apply, bcast_ab1_abc, bcast_ab_ab1]
  show Ideal.exp (leakyTerm (F := Ideal) (preTerm (F := Ideal) a0 a1 a2 a4 a5 a6) (constant S_ .f32 0x3E4CCCCD#32) (ix3 n k o))
      * a3 (ix2 n k) = _
  rw [leakyTerm_apply, preTerm_apply]

end Cert.ReferenceIdeal.RefRead

end
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.LibFiniteOps.lean ====
/-
  Finiteness through the vector operations of the ideal values. With `AllReal v` (every entry of
  `v` a real number): a re-indexing of a finite vector (broadcasts, shape casts, slices, transposes,
  a gather) is finite; a matrix product (`tpu.matmul` onto a finite accumulator, the host's
  `dot_general`) of finite operands is finite — at each index a finite sum of products —; so are a
  sum reduction (`vector.multi_reduction <add>`, the host's `reduce … add` from a finite initial
  value) and the host's accumulating scatter of finite updates into a finite operand. A scatter of
  nonnegative updates into a nonnegative operand is nonnegative: a count (ones scattered into zeros)
  is a real `≥ 0`, and its maximum with `1` is a real `≥ 1`, in particular finite and nonzero — a
  divisor the quotient of finite values stays finite by.
-/
import proofs.«163248_j15307263443312_2_alg».proof.Proof.LibFinite

open scoped BigOperators
open Idealize.ShloMosaic

namespace LibFinite

variable {φ φ₁ φ₂ : FTy} {s t : Shape}

/-! ### Constants -/

/-- The f32 pattern of `1.0` is the extended real `1`. -/
theorem f32_one : Ideal.ofBits .f32 0x3F800000#32 = 1 := by
  simp [Ideal.ofBits, Ideal.ieee, -EReal.coe_mul]; norm_num

theorem allReal_constant_zero_f32 (s : Shape) : AllReal (constant (F := Ideal) s .f32 0x00000000#32) :=
  fun _ => by show IsReal (Ideal.ofBits .f32 0x00000000#32); rw [Ideal.ofBits_zero_f32]; exact isReal_zero
theorem allReal_constant_one_f32 (s : Shape) : AllReal (constant (F := Ideal) s .f32 0x3F800000#32) :=
  fun _ => by show IsReal (Ideal.ofBits .f32 0x3F800000#32); rw [f32_one]; exact isReal_one
/-- A constant whose pattern denotes a real. -/
theorem allReal_constant_of_eq (s : Shape) (φ : FTy) (b : BitVec φ.bits) {r : ℝ} (hb : Ideal.ofBits φ b = (r : EReal)) :
    AllReal (constant (F := Ideal) s φ b) :=
  fun _ => ⟨r, hb⟩

/-! ### Re-indexings -/

/-- Reading a finite vector through any map of indices gives a finite vector. -/
theorem allReal_comp {x : s.Idx → EReal} (hx : AllReal x) (f : t.Idx → s.Idx) : AllReal (fun j => x (f j)) :=
  fun j => hx (f j)

theorem allReal_broadcastTo {x : s.Idx → EReal} (hx : AllReal x) (t : Shape) (h : s.Broadcasts t) :
    AllReal (broadcastTo t x h) := fun _ => hx _
theorem allReal_broadcastInDim {x : s.Idx → EReal} (hx : AllReal x) (t : Shape) (dims : Fin s.rank → Fin t.rank)
    (h : s.BroadcastsInDim t dims) : AllReal (broadcastInDim t dims h x) := fun _ => hx _
theorem allReal_shapeCast {x : s.Idx → EReal} (hx : AllReal x) (t : Shape) (h : s.ShapeCasts t) :
    AllReal (shapeCast t x h) := fun _ => hx _
theorem allReal_extractStridedSlice {x : s.Idx → EReal} (hx : AllReal x) (t : Shape) (off : Fin s.rank → Nat)
    (h : s.Slices off t) : AllReal (extractStridedSlice t off x h) := fun _ => hx _
theorem allReal_transpose {x : s.Idx → EReal} (hx : AllReal x) (t : Shape) (perm : List (Fin s.rank))
    (h : s.Transposes perm t) : AllReal (transpose t perm x h) := fun _ => hx _
/-- The host's gather reads the operand at an index computed from the start indices: finite operand,
    finite result, whatever the indices. -/
theorem allReal_gather {si : Shape} {w : Nat} (d : GatherDims s si t) {x : s.Idx → EReal} (hx : AllReal x)
    (idx : IVec si w) : AllReal (Host.gather d x idx) := fun _ => hx _

/-! ### Products -/

/-- `tpu.matmul` of finite operands onto a finite accumulator. -/
theorem allReal_matmul {sl sr so : Shape} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (matmul d prec lhs rhs acc) := fun j => by
  show IsReal (FloatOps.matmul d prec lhs rhs acc j)
  rw [Ideal.matmul_apply]
  exact (ha j).add (isReal_sum _ _ fun k _ => (hl _).mul (hr _))

/-- …onto the zero splat. -/
theorem allReal_matmul_zero {sl sr so : Shape} (d : DotDims sl sr so) (prec : Option ContractPrecision)
    {lhs : FVec Ideal sl φ₁} {rhs : FVec Ideal sr φ₂} (hl : AllReal lhs) (hr : AllReal rhs) :
    AllReal (matmul d prec lhs rhs (constant so .f32 0x00000000#32)) :=
  allReal_matmul d prec hl hr (allReal_constant_zero_f32 so)

/-- The host's `dot_general` of finite operands, at any schedule key. -/
theorem allReal_dotGeneralAt {sl sr so : Shape} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) := fun j => by
  rw [Ideal.dotGeneral_apply]
  exact isReal_sum _ _ fun k _ => (hl _).mul (hr _)

theorem allReal_dotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := allReal_dotGeneralAt d prec .single hl hr

/-! ### Sum reductions -/

/-- `vector.multi_reduction <add>` of a finite vector, over any axes. -/
theorem allReal_multiReduction_add {axes : List (Fin s.rank)} {src : FVec Ideal s φ} (hsrc : AllReal src)
    (acc : BitVec φ.bits) (h : s.Reduces axes t) (hφ : FKind.Formats φ) (hacc : acc = FKind.add.neutral φ hφ) :
    AllReal (multiReduction .add axes t src acc h hφ hacc) := fun j => by
  show IsReal (Ideal.reduceAdd h src j)
  unfold Ideal.reduceAdd
  exact isReal_sum _ _ fun i _ => hsrc i

/-- The host's `reduce … add` of a finite vector from a finite initial value, over any axes. -/
theorem allReal_hostReduceAdd {axes : List (Fin s.rank)} {u : Shape} {x : FVec Ideal s φ} (hx : AllReal x)
    {init : u.Idx → Ideal φ} (hinit : ∀ k, IsReal (init k)) (h : s.ReducesTo axes t) (hu : 0 < u.numel) :
    AllReal (Host.reduceAdd x init h hu) := fun j => by
  show IsReal (Ideal.hostReduceAdd h x (init (Shape.Idx.first hu)) j)
  unfold Ideal.hostReduceAdd
  exact (hinit _).add (isReal_sum _ _ fun i _ => hx i)

/-! ### The accumulating scatter -/

/-- The host's float scatter-add of finite updates into a finite operand is finite, whatever the indices. -/
theorem allReal_scatterAdd {si u : Shape} {w : Nat} (d : ScatterDims s si u) {x : FVec Ideal s φ} (hx : AllReal x)
    (idx : IVec si w) {upd : FVec Ideal u φ} (hupd : AllReal upd) : AllReal (Host.scatterAdd d x idx upd) := fun i => by
  show IsReal (Ideal.hostScatterAdd d x idx upd i)
  unfold Ideal.hostScatterAdd
  exact (hx i).add (isReal_sum _ _ fun j _ => hupd j)

/-- …and nonnegative when the operand and the updates are. -/
theorem scatterAdd_nonneg {si u : Shape} {w : Nat} (d : ScatterDims s si u) {x : FVec Ideal s φ} (hx : ∀ i, 0 ≤ x i)
    (idx : IVec si w) {upd : FVec Ideal u φ} (hupd : ∀ j, 0 ≤ upd j) (i : s.Idx) : 0 ≤ Host.scatterAdd d x idx upd i := by
  show 0 ≤ Ideal.hostScatterAdd d x idx upd i
  unfold Ideal.hostScatterAdd
  exact add_nonneg (hx i) (Finset.sum_nonneg fun j _ => hupd j)

/-- A count — ones scattered into zeros — is at each element a real `≥ 0`. -/
theorem scatterAdd_count {si u : Shape} {w : Nat} (d : ScatterDims s si u) {x : FVec Ideal s φ} (hx : ∀ i, x i = 0)
    (idx : IVec si w) {upd : FVec Ideal u φ} (hupd : ∀ j, upd j = 1) (i : s.Idx) :
    IsReal (Host.scatterAdd d x idx upd i) ∧ 0 ≤ Host.scatterAdd d x idx upd i :=
  ⟨allReal_scatterAdd d (fun i => by rw [hx i]; exact isReal_zero) idx (fun j => by rw [hupd j]; exact isReal_one) i,
   scatterAdd_nonneg d (fun i => (hx i).ge) idx (fun j => by rw [hupd j]; exact zero_le_one) i⟩

/-- The maximum of a finite value with `1` is finite, at least `1`, and not zero. -/
theorem max_one_spec {c : EReal} (hc : IsReal c) : IsReal (max c 1) ∧ 1 ≤ max c 1 ∧ max c 1 ≠ 0 :=
  ⟨hc.max isReal_one, le_max_right c 1, (lt_of_lt_of_le zero_lt_one (le_max_right c 1)).ne'⟩

/-- Entrywise: `maximumf v ones` of a finite vector is finite and nowhere zero. -/
theorem allReal_max_one {v one : FVec Ideal s φ} (hv : AllReal v) (hone : ∀ i, one i = 1) :
    AllReal (maximumf v one) ∧ ∀ i, maximumf v one i ≠ 0 := by
  refine ⟨fun i => ?_, fun i => ?_⟩
  · show IsReal (max (v i) (one i)); rw [hone i]; exact (max_one_spec (hv i)).1
  · show max (v i) (one i) ≠ 0; rw [hone i]; exact (max_one_spec (hv i)).2.2

end LibFinite
-- ==== Proof.Law.lean ====
/-
  The algebraic law: on finite arrays the two spellings of the result are equal.

  The mixing term is a double sum; folding the projection into the mixing matrix first or projecting first
  and mixing second are its two orders of summation. Over the extended reals multiplication does not distribute
  over addition at the infinities, so the exchange is made over the reals: every entry inside the double sum
  is a real number, the coercion of the reals commutes with finite sums and with products, and over the reals
  Σ_f x_f · (Σ_c a_c · w_{c,f}) = Σ_c (Σ_f x_f · w_{c,f}) · a_c.

  The two rectifiers differ only in their test at 0, where both branches are 0; the fold's initial zero word
  is the additive zero; the two exponential linear units agree since the unit word is the multiplicative unit.
  These hold for every extended real.
-/
import proofs.«163248_j15307263443312_2_alg».proof.Proof.Spec
import proofs.«163248_j15307263443312_2_alg».proof.Proof.LibFinite
import proofs.«163248_j15307263443312_2_alg».proof.Proof.LibFiniteOps

open scoped BigOperators
open Idealize.ShloMosaic Idealize.ShloMosaic.ValueIdx
open LibFinite

noncomputable section

namespace Cert.EdgeSum

/-! ### Sums over 256 columns, half by half -/

/-- A sum over 256 columns is the sum over the lower 128 plus the sum over the upper 128. -/
theorem sum_halves (g : Fin 256 → EReal) :
    ∑ j : Fin 256, g j = ∑ c : Fin 128, g (dn c) + ∑ c : Fin 128, g (up c) :=
  Fin.sum_univ_add (a := 128) (b := 128) g

/-- Column `c` of the lower half is below 128. -/
theorem dn_lt (c : Fin 128) : (dn c).val < 128 := c.isLt
/-- Column `c` of the upper half is not below 128. -/
theorem up_not_lt (c : Fin 128) : ¬ (up c).val < 128 := by
  show ¬ 128 + c.val < 128
  omega

/-- The lower-half column `c`, read back as a column below 128, is `c`. -/
theorem lo_dn (c : Fin 128) (h : (dn c).val < 128) : lo (dn c) h = c := rfl
/-- The upper-half column `128 + c`, brought down by 128, is `c`. -/
theorem hi_up (c : Fin 128) (h : ¬ (up c).val < 128) : hi (up c) h = c :=
  Fin.ext (by show 128 + c.val - 128 = c.val; omega)

section Halves

variable (X1 X2 : (⟨3, ![32768, 16, 128]⟩ : Shape).Idx → EReal)
  (W : (⟨2, ![128, 128]⟩ : Shape).Idx → EReal)
  (Wa : (⟨2, ![128, 256]⟩ : Shape).Idx → EReal)

/-- The two raw rows side by side read, in the lower half, the feature row … -/
theorem catK_dn (n : Fin 32768) (k : Fin 16) (c : Fin 128) : catK X1 X2 n k (dn c) = X1 (ix3 n k c) := by
  unfold catK
  rw [dif_pos (dn_lt c)]
/-- … and in the upper half the aspect row. -/
theorem catK_up (n : Fin 32768) (k : Fin 16) (c : Fin 128) : catK X1 X2 n k (up c) = X2 (ix3 n k c) := by
  unfold catK
  rw [dif_neg (up_not_lt c), hi_up]

/-- The two projected rows side by side read, in the lower half, the projected feature row … -/
theorem catR_dn (n : Fin 32768) (k : Fin 16) (c : Fin 128) : catR X1 X2 W n k (dn c) = proj W X1 n k c := by
  unfold catR
  rw [dif_pos (dn_lt c)]
/-- … and in the upper half the projected aspect row. -/
theorem catR_up (n : Fin 32768) (k : Fin 16) (c : Fin 128) : catR X1 X2 W n k (up c) = proj W X2 n k c := by
  unfold catR
  rw [dif_neg (up_not_lt c), hi_up]

/-- The folded matrix in the lower half: the lower half of the mixing matrix against the projection … -/
theorem wcat_dn (o f : Fin 128) : wcat W Wa o (dn f) = ∑ c : Fin 128, Wa (ix2 o (dn c)) * W (ix2 c f) := by
  unfold wcat
  rw [dif_pos (dn_lt f)]
/-- … and in the upper half: the upper half of the mixing matrix against the projection. -/
theorem wcat_up (o f : Fin 128) : wcat W Wa o (up f) = ∑ c : Fin 128, Wa (ix2 o (up c)) * W (ix2 c f) := by
  unfold wcat
  rw [dif_neg (up_not_lt f), hi_up]

end Halves

/-! ### The exchange of the two sums, over the reals -/

/-- For real `x`, `a`, `w`: Σ_f x_f · (Σ_c a_c · w_{c,f}) = Σ_c (Σ_f x_f · w_{c,f}) · a_c. -/
theorem sum_exchange (x a : Fin 128 → EReal) (w : Fin 128 → Fin 128 → EReal)
    (hx : ∀ f, IsReal (x f)) (ha : ∀ c, IsReal (a c)) (hw : ∀ c f, IsReal (w c f)) :
    ∑ f : Fin 128, x f * (∑ c : Fin 128, a c * w c f) = ∑ c : Fin 128, (∑ f : Fin 128, x f * w c f) * a c := by
  choose xr hxr using hx
  choose ar har using ha
  choose wr hwr using hw
  have hL : ∀ f, x f * (∑ c : Fin 128, a c * w c f) = ((xr f * ∑ c : Fin 128, ar c * wr c f : ℝ) : EReal) := by
    intro f
    rw [EReal.coe_mul, coe_finset_sum, hxr f]
    congr 1
    exact Finset.sum_congr rfl fun c _ => by rw [har c, hwr c f, EReal.coe_mul]
  have hR : ∀ c, (∑ f : Fin 128, x f * w c f) * a c = (((∑ f : Fin 128, xr f * wr c f) * ar c : ℝ) : EReal) := by
    intro c
    rw [EReal.coe_mul, coe_finset_sum, har c]
    congr 1
    exact Finset.sum_congr rfl fun f _ => by rw [hxr f, hwr c f, EReal.coe_mul]
  rw [Finset.sum_congr rfl fun f _ => hL f, Finset.sum_congr rfl fun c _ => hR c,
    ← coe_finset_sum, ← coe_finset_sum]
  congr 1
  simp only [Finset.mul_sum, Finset.sum_mul]
  rw [Finset.sum_comm]
  exact Finset.sum_congr rfl fun c _ => Finset.sum_congr rfl fun f _ => by ring

/-! ### The mixing term -/

/-- On finite arrays the mixing term is the same with the weights folded first or projected first: the two orders
    of its double sum, half by half. -/
theorem mixK_eq_mixR
    {X1 X2 : (⟨3, ![32768, 16, 128]⟩ : Shape).Idx → EReal} {W : (⟨2, ![128, 128]⟩ : Shape).Idx → EReal}
    {Wa : (⟨2, ![128, 256]⟩ : Shape).Idx → EReal}
    (h1 : AllReal X1) (h2 : AllReal X2) (h4 : AllReal W) (h5 : AllReal Wa)
    (n : Fin 32768) (k : Fin 16) (o : Fin 128) :
    mixK X1 X2 W Wa n k o = mixR X1 X2 W Wa n k o := by
  unfold mixK mixR
  rw [sum_halves, sum_halves (fun j => catR X1 X2 W n k j * Wa (ix2 o j))]
  simp only [catK_dn, catK_up, catR_dn, catR_up, wcat_dn, wcat_up]
  unfold proj
  rw [sum_exchange (fun f => X1 (ix3 n k f)) (fun c => Wa (ix2 o (dn c))) (fun c f => W (ix2 c f))
        (fun f => h1 _) (fun c => h5 _) (fun c f => h4 _),
      sum_exchange (fun f => X2 (ix3 n k f)) (fun c => Wa (ix2 o (up c))) (fun c f => W (ix2 c f))
        (fun f => h2 _) (fun c => h5 _) (fun c f => h4 _)]

/-- On finite arrays the two pre-activations of an edge are equal. -/
theorem preK_eq_preR
    {X1 X2 : (⟨3, ![32768, 16, 128]⟩ : Shape).Idx → EReal} {W : (⟨2, ![128, 128]⟩ : Shape).Idx → EReal}
    {Wa : (⟨2, ![128, 256]⟩ : Shape).Idx → EReal}
    (X0 : (⟨2, ![32768, 128]⟩ : Shape).Idx → EReal) (ba : (⟨1, ![128]⟩ : Shape).Idx → EReal)
    (h1 : AllReal X1) (h2 : AllReal X2) (h4 : AllReal W) (h5 : AllReal Wa)
    (n : Fin 32768) (k : Fin 16) (o : Fin 128) :
    preK X0 X1 X2 W Wa ba n k o = preR X0 X1 X2 W Wa ba n k o := by
  unfold preK preR
  rw [mixK_eq_mixR h1 h2 h4 h5]

/-! ### The pointwise functions, for every extended real -/

/-- The float word of 0 is the extended real 0. -/
theorem zero32_eq : zero32 = 0 := Ideal.ofBits_zero_f32
/-- The float word of 1 is the extended real 1. -/
theorem one32_eq : one32 = 1 := f32_one

/-- A select on the word of a Boolean is the conditional on it. -/
theorem select_ofBool {α : Type} (p : Bool) (a b : α) :
    Scalar.select (BitVec.ofBool p) a b = if p then a else b := by
  cases p
  · exact select_zero a b
  · exact select_one a b

/-- The strict test against the zero word is the word of `0 < x`. -/
theorem cmp_ogt_zero32 (x : EReal) : Ideal.cmp .ogt x zero32 = BitVec.ofBool (decide ((0 : EReal) < x)) := by
  rw [zero32_eq]; rfl
/-- The non-strict test against the zero word is the word of `0 ≤ x`. -/
theorem cmp_oge_zero32 (x : EReal) : Ideal.cmp .oge x zero32 = BitVec.ofBool (decide ((0 : EReal) ≤ x)) := by
  rw [zero32_eq]; rfl

/-- The strict and the non-strict rectifier agree: they differ only at 0, where the slope times 0 is 0. -/
theorem leakyK_eq_leakyR (x : EReal) : leakyK x = leakyR x := by
  unfold leakyK leakyR
  rw [cmp_ogt_zero32, cmp_oge_zero32, select_ofBool, select_ofBool]
  by_cases h : (0 : EReal) < x
  · rw [decide_eq_true h, decide_eq_true h.le]
  · rw [decide_eq_false h]
    by_cases h0 : (0 : EReal) ≤ x
    · have hx : x = 0 := le_antisymm (not_lt.mp h) h0
      rw [decide_eq_true h0, hx, mul_zero]
      rfl
    · rw [decide_eq_false h0]

/-- The fold's initial zero word adds nothing. -/
theorem zero32_add (s : EReal) : zero32 + s = s := by rw [zero32_eq, zero_add]

/-- The two exponential linear units agree. -/
theorem eluK_eq_eluR (r : EReal) : eluK r = eluR r := by
  unfold eluK eluR
  rw [cmp_ogt_zero32, select_ofBool, select_ofBool, select_ofBool, one32_eq]
  by_cases h : (0 : EReal) < r
  · rw [decide_eq_true h]
    rfl
  · rw [decide_eq_false h]
    show Ideal.exp r - 1 = 1 * (Ideal.exp r - 1)
    rw [one_mul]

/-! ### The result -/

section Result

variable {X0 : (⟨2, ![32768, 128]⟩ : Shape).Idx → EReal}
  {X1 X2 : (⟨3, ![32768, 16, 128]⟩ : Shape).Idx → EReal}
  {A : (⟨2, ![32768, 16]⟩ : Shape).Idx → EReal}
  {W : (⟨2, ![128, 128]⟩ : Shape).Idx → EReal}
  {Wa : (⟨2, ![128, 256]⟩ : Shape).Idx → EReal}
  {ba bias : (⟨1, ![128]⟩ : Shape).Idx → EReal}

/-- On finite arrays the two attention-weighted sums over the neighbours are equal. -/
theorem aggK_eq_aggR (h1 : AllReal X1) (h2 : AllReal X2) (h4 : AllReal W) (h5 : AllReal Wa)
    (n : Fin 32768) (o : Fin 128) :
    aggK X0 X1 X2 A W Wa ba n o = aggR X0 X1 X2 A W Wa ba n o := by
  unfold aggK aggR
  rw [zero32_add]
  exact Finset.sum_congr rfl fun k _ => by rw [preK_eq_preR X0 ba h1 h2 h4 h5, leakyK_eq_leakyR]

/-- On finite arrays the two results at node `n`, channel `o` are equal. -/
theorem outK_eq_outR (h1 : AllReal X1) (h2 : AllReal X2) (h4 : AllReal W) (h5 : AllReal Wa)
    (n : Fin 32768) (o : Fin 128) :
    outK X0 X1 X2 A W Wa ba bias n o = outR X0 X1 X2 A W Wa ba bias n o := by
  unfold outK outR
  rw [aggK_eq_aggR h1 h2 h4 h5, eluK_eq_eluR]

end Result

/-- On finite arrays the two spellings of the result are equal. -/
theorem arrK_eq_arrR
    {X0 : (⟨2, ![32768, 128]⟩ : Shape).Idx → EReal} {X1 X2 : (⟨3, ![32768, 16, 128]⟩ : Shape).Idx → EReal}
    {A : (⟨2, ![32768, 16]⟩ : Shape).Idx → EReal} {W : (⟨2, ![128, 128]⟩ : Shape).Idx → EReal}
    {Wa : (⟨2, ![128, 256]⟩ : Shape).Idx → EReal} {ba bias : (⟨1, ![128]⟩ : Shape).Idx → EReal}
    (h1 : AllReal X1) (h2 : AllReal X2) (h4 : AllReal W) (h5 : AllReal Wa) :
    arrK X0 X1 X2 A W Wa ba bias = arrR X0 X1 X2 A W Wa ba bias := by
  funext i
  exact outK_eq_outR h1 h2 h4 h5 _ _

end Cert.EdgeSum

end
-- ==== Proof.Finite.lean ====
/-
  Finiteness from the precondition. The printed predicate conjoins, for each of the eight
  float arrays, `all(|x| < +inf)`; when it is all ones, every entry of every array is a real
  number. One lemma reads a single `all(|x| < +inf) = 1` at any shape: the reduction by
  `and` into a result of one index that is 1 had a 1 at every operand index, the broadcast
  scalar reads the pattern of `+inf`, which is `⊤`, and `max x (-x) < ⊤` excludes both
  infinities. The theorem splits the seven `and`s and applies the lemma eight times.
-/
import proofs.«163248_j15307263443312_2_alg».proof.Proof.Gen.Pre_finite_inputs
import proofs.«163248_j15307263443312_2_alg».proof.Proof.LibFinite
import Idealize.ShloMosaic.Lib.ReduceAll
import Idealize.ShloMosaic.Lib.IdealHost

open Idealize.ShloMosaic Idealize.ShloMosaic.ValueIdx
open Cert.Pre_finite_inputs LibFinite

namespace Cert.EdgeSum

namespace Finite

/-- The shape of rank 0 has one index. -/
instance subsingleton_S_Idx : Subsingleton S_.Idx := ⟨fun a b => funext fun d => d.elim0⟩

/-- The f32 pattern `0x7F800000` is `+inf`. -/
theorem ofBits_inf_f32 : Ideal.ofBits .f32 0x7F800000#32 = ⊤ := by simp [Ideal.ofBits, Ideal.ieee]

/-- `|x| < ⊤` on the extended reals says `x` is a real number. -/
theorem isReal_of_abs_lt_top {x : EReal} (h : max x (-x) < ⊤) : IsReal x := by
  rw [max_lt_iff] at h
  refine isReal_iff.2 ⟨?_, ?_⟩
  · intro hb; rw [hb] at h; exact absurd h.2 (by simp)
  · intro ht; rw [ht] at h; exact absurd h.1 (by simp)

/-- One comparison `|x| < +inf` that came out 1 says `x` is a real number. -/
theorem isReal_of_cmp_abs_inf {x : Ideal .f32}
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf_f32] at h'
  unfold Ideal.cmp at h'
  refine isReal_of_abs_lt_top ?_
  by_contra hn
  simp [hn] at h'

/-- `all(|x| < +inf) = 1` at any shape gives: every entry of `x` is a real number. -/
theorem allReal_of_all_abs_lt_inf {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) :
    AllReal x := by
  intro i
  have e := Host.reduce_andi_all _ _ hr hu ix0 h i
  rw [cmpf_apply, broadcastInDim_scalar_apply] at e
  exact isReal_of_cmp_abs_inf e

/-- An `and` of two words at an index that is 1: both are 1. -/
theorem andi_apply_eq_one {s : Shape} {x y : IVec s 1} {i : s.Idx} (h : andi x y i = 1#1) :
    x i = 1#1 ∧ y i = 1#1 := IntOp.andi_eq_one.1 h

end Finite

open Finite in
/-- The precondition all ones: every entry of each of the eight float arrays is a real number. -/
theorem allReal_of_pre (a0 : FVec Ideal S32768x128 .f32) (a1 a2 : FVec Ideal S32768x16x128 .f32) (a3 : FVec Ideal S32768x16 .f32)
    (a4 : FVec Ideal S128x128 .f32) (a5 : FVec Ideal S128x256 .f32) (a6 a7 : FVec Ideal S128 .f32)
    (h : Cert.Pre_finite_inputs.fn (F := Ideal) a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h ix0
  dsimp only [Cert.Pre_finite_inputs.fn, Cert.Pre_finite_inputs.fn_part1, Cert.Pre_finite_inputs.fn_part2] at h0
  obtain ⟨h0, h7⟩ := andi_apply_eq_one h0
  obtain ⟨h0, h6⟩ := andi_apply_eq_one h0
  obtain ⟨h0, h5⟩ := andi_apply_eq_one h0
  obtain ⟨h0, h4⟩ := andi_apply_eq_one h0
  obtain ⟨h0, h3⟩ := andi_apply_eq_one h0
  obtain ⟨h0, h2⟩ := andi_apply_eq_one h0
  obtain ⟨h0, h1⟩ := andi_apply_eq_one h0
  exact ⟨allReal_of_all_abs_lt_inf a0 _ _ _ h0, allReal_of_all_abs_lt_inf a1 _ _ _ h1,
    allReal_of_all_abs_lt_inf a2 _ _ _ h2, allReal_of_all_abs_lt_inf a3 _ _ _ h3,
    allReal_of_all_abs_lt_inf a4 _ _ _ h4, allReal_of_all_abs_lt_inf a5 _ _ _ h5,
    allReal_of_all_abs_lt_inf a6 _ _ _ h6, allReal_of_all_abs_lt_inf a7 _ _ _ h7⟩

end Cert.EdgeSum
-- ==== Proof.lean ====
/-
  Two programs for one layer of attention over a graph's edges, equal on the extended reals.

  Every node `n` of 32768 has 16 neighbours; neighbour `k` carries a feature row and an aspect row of 128 entries
  and an attention score. Both programs compute, per edge and output channel `o`,

      pre (n,k,o) = mix (n,k,o) + ba o + Σ_f nodes (n,f) · W (o,f),

  put it through a leaky rectifier of slope 0.2 and the exponential, weight it by the score, sum over the 16
  neighbours, add `bias o`, and apply the exponential linear unit. They differ in `mix`, the 128 × 256 matrix
  `Wa` applied to the two rows projected by `W` and laid side by side: the reference projects each row first and
  mixes second; the kernel multiplies `Wa`'s two halves by `W` once, before its grid, and applies the folded
  128 × 256 matrix to the raw rows. The two are one double sum read in two orders,

      Σ_c (Σ_f x_f · W (c,f)) · Wa (o,c)  =  Σ_f x_f · (Σ_c Wa (o,c) · W (c,f)),

  which holds for real numbers and can fail when an entry is infinite: this is where the precondition — every
  input entry finite — is used, and the only place. The rectifier tests `> 0` in one program and `≥ 0` in the
  other (equal, the slope times 0 being 0); the last step is `exp r − 1` in one and `1 · (exp r' − 1)` in the
  other with `r'` the argument made nonpositive first (equal, since that branch is taken only where `r ≤ 0`).

  The kernel runs a grid of 128 points, point `t` computing rows 256 t … 256 t + 255 of the result from the
  matching blocks of the node, neighbour, aspect and score arrays and the whole weight arrays; its blocks tile the
  result. The word-level kernel is idealized by reading its own text at exact arithmetic (no rewrite), so that
  conjunct is immediate; the three frames are the generated runs.
-/
import proofs.«163248_j15307263443312_2_alg».proof.Defs
import proofs.«163248_j15307263443312_2_alg».proof.Proof.Gen.Kernel
import proofs.«163248_j15307263443312_2_alg».proof.Proof.Gen.Kernel.Skeleton
import proofs.«163248_j15307263443312_2_alg».proof.Proof.Gen.Kernel.Launch
import proofs.«163248_j15307263443312_2_alg».proof.Proof.Gen.Kernel.Points
import proofs.«163248_j15307263443312_2_alg».proof.Proof.Gen.Kernel.Frame
import proofs.«163248_j15307263443312_2_alg».proof.Proof.Gen.KernelIdeal
import proofs.«163248_j15307263443312_2_alg».proof.Proof.Gen.KernelIdeal.Skeleton
import proofs.«163248_j15307263443312_2_alg».proof.Proof.Gen.KernelIdeal.Launch
import proofs.«163248_j15307263443312_2_alg».proof.Proof.Gen.KernelIdeal.Points
import proofs.«163248_j15307263443312_2_alg».proof.Proof.Gen.KernelIdeal.Frame
import proofs.«163248_j15307263443312_2_alg».proof.Proof.Gen.KernelIdeal.Value
import proofs.«163248_j15307263443312_2_alg».proof.Proof.Gen.ReferenceIdeal
import proofs.«163248_j15307263443312_2_alg».proof.Proof.Gen.Pre_finite_inputs
import proofs.«163248_j15307263443312_2_alg».proof.Proof.KernelArray
import proofs.«163248_j15307263443312_2_alg».proof.Proof.RefRun
import proofs.«163248_j15307263443312_2_alg».proof.Proof.RefRead
import proofs.«163248_j15307263443312_2_alg».proof.Proof.Law
import proofs.«163248_j15307263443312_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.RefValue.run (F := Ideal) m ρ)

/-- No operation of the kernel was rewritten on the way to exact arithmetic. -/
theorem preserves : Cert.preserves_Kernel_KernelIdeal := trivial

/-- From memories agreeing on the eight arguments the kernel's result array is the function with the weights
    folded first, the reference's the function with the rows projected first; every argument entry being
    finite, the two functions are equal. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.RefValue.run (F := Ideal) m' ρ')
  obtain ⟨e0, e1, e2, e3, e4, e5, e6, e7⟩ := hagree c
  rw [e0, e1, e2, e3, e4, e5, e6, e7, Cert.ReferenceIdeal.RefRead.refTerm_eq]
  obtain ⟨_, h1, h2, _, h4, h5, _, _⟩ := Cert.EdgeSum.allReal_of_pre _ _ _ _ _ _ _ _ (hpre c)
  exact (Cert.EdgeSum.arrK_eq_arrR h1 h2 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
